-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v4_0)) (v2 : (c : Dev Cert.KernelIdeal.nD) → Buf (Elt Ideal) ((c.tc : Thread Cert.KernelIdeal.nD Cert.KernelIdeal.τ).loc Cert.KernelIdeal.main_v4_1)) (v3 : (c : Dev Cert.KernelIdeal.nD) → Buf (Elt Ideal) ((c.tc : Thread Cert.KernelIdeal.nD Cert.KernelIdeal.τ).loc Cert.KernelIdeal.main_v4_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v4_0) = v1 c
          ∧ r.2.mem ((c.tc : Thread Cert.KernelIdeal.nD Cert.KernelIdeal.τ).loc Cert.KernelIdeal.main_v4_1) = v2 c
          ∧ r.2.mem ((c.tc : Thread Cert.KernelIdeal.nD Cert.KernelIdeal.τ).loc Cert.KernelIdeal.main_v4_2) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v52) = v1 c
          ∧ r.2.mem ((c.tc : Thread Cert.ReferenceIdeal.nD Cert.ReferenceIdeal.τ).loc Cert.ReferenceIdeal.main_v54) = v2 c
          ∧ r.2.mem ((c.tc : Thread Cert.ReferenceIdeal.nD Cert.ReferenceIdeal.τ).loc Cert.ReferenceIdeal.main_v45) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S1x2048 : Shape := ⟨2, ![1, 2048]⟩
abbrev S2048x2048 : Shape := ⟨2, ![2048, 2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S1x2048 : S_.BroadcastsInDim S1x2048 (![] : Fin 0 → Fin S1x2048.rank)
  reducesTo_S1x2048_S_d0_1 : S1x2048.ReducesTo [0, 1] S_
  bcast_S_S2048x2048 : S_.BroadcastsInDim S2048x2048 (![] : Fin 0 → Fin S2048x2048.rank)
  reducesTo_S2048x2048_S_d0_1 : S2048x2048.ReducesTo [0, 1] S_

variable [Facts]

def fn_part3 {F : FTy → Type} [FloatOps F] (main_arg11 : FVec F S2048x2048 .f32) (main_arg12 : FVec F S2048x2048 .f32) (main_v48 : IVec S_ 1) (main_v49 : FVec F S2048x2048 .f32) (main_v50 : FVec F S2048x2048 .f32) : IVec S_ 1 :=
  let main_v51 : IVec S2048x2048 1 := cmpf .olt main_v49 main_v50
  let main_c_19 : IVec S_ 1 := constantI S_ 1 1#1
  let main_v52 : IVec S_ 1 := (fun x v => Host.reduce IntOp.andi x v reducesTo_S2048x2048_S_d0_1 h_S_) main_v51 main_c_19
  let main_v53 : IVec S_ 1 := andi main_v48 main_v52
  let main_v54 : FVec F S2048x2048 .f32 := Host.absf main_arg11
  let main_cst_20 : FVec F S_ .f32 := constant S_ .f32 0x7F800000#32
  let main_v55 : FVec F S2048x2048 .f32 := broadcastInDim S2048x2048 ![] bcast_S_S2048x2048 main_cst_20
  let main_v56 : IVec S2048x2048 1 := cmpf .olt main_v54 main_v55
  let main_c_21 : IVec S_ 1 := constantI S_ 1 1#1
  let main_v57 : IVec S_ 1 := (fun x v => Host.reduce IntOp.andi x v reducesTo_S2048x2048_S_d0_1 h_S_) main_v56 main_c_21
  let main_v58 : IVec S_ 1 := andi main_v53 main_v57
  let main_v59 : FVec F S2048x2048 .f32 := Host.absf main_arg12
  let main_cst_22 : FVec F S_ .f32 := constant S_ .f32 0x7F800000#32
  let main_v60 : FVec F S2048x2048 .f32 := broadcastInDim S2048x2048 ![] bcast_S_S2048x2048 main_cst_22
  let main_v61 : IVec S2048x2048 1 := cmpf .olt main_v59 main_v60
  let main_c_23 : IVec S_ 1 := constantI S_ 1 1#1
  let main_v62 : IVec S_ 1 := (fun x v => Host.reduce IntOp.andi x v reducesTo_S2048x2048_S_d0_1 h_S_) main_v61 main_c_23
  let main_v63 : IVec S_ 1 := andi main_v58 main_v62
  main_v63

def fn_part2 {F : FTy → Type} [FloatOps F] (main_arg7 : FVec F S1x2048 .f32) (main_arg8 : FVec F S1x2048 .f32) (main_arg9 : FVec F S2048x2048 .f32) (main_arg10 : FVec F S2048x2048 .f32) (main_arg11 : FVec F S2048x2048 .f32) (main_arg12 : FVec F S2048x2048 .f32) (main_v33 : IVec S_ 1) : IVec S_ 1 :=
  let main_v34 : FVec F S1x2048 .f32 := Host.absf main_arg7
  let main_cst_12 : FVec F S_ .f32 := constant S_ .f32 0x7F800000#32
  let main_v35 : FVec F S1x2048 .f32 := broadcastInDim S1x2048 ![] bcast_S_S1x2048 main_cst_12
  let main_v36 : IVec S1x2048 1 := cmpf .olt main_v34 main_v35
  let main_c_13 : IVec S_ 1 := constantI S_ 1 1#1
  let main_v37 : IVec S_ 1 := (fun x v => Host.reduce IntOp.andi x v reducesTo_S1x2048_S_d0_1 h_S_) main_v36 main_c_13
  let main_v38 : IVec S_ 1 := andi main_v33 main_v37
  let main_v39 : FVec F S1x2048 .f32 := Host.absf main_arg8
  let main_cst_14 : FVec F S_ .f32 := constant S_ .f32 0x7F800000#32
  let main_v40 : FVec F S1x2048 .f32 := broadcastInDim S1x2048 ![] bcast_S_S1x2048 main_cst_14
  let main_v41 : IVec S1x2048 1 := cmpf .olt main_v39 main_v40
  let main_c_15 : IVec S_ 1 := constantI S_ 1 1#1
  let main_v42 : IVec S_ 1 := (fun x v => Host.reduce IntOp.andi x v reducesTo_S1x2048_S_d0_1 h_S_) main_v41 main_c_15
  let main_v43 : IVec S_ 1 := andi main_v38 main_v42
  let main_v44 : FVec F S2048x2048 .f32 := Host.absf main_arg9
  let main_cst_16 : FVec F S_ .f32 := constant S_ .f32 0x7F800000#32
  let main_v45 : FVec F S2048x2048 .f32 := broadcastInDim S2048x2048 ![] bcast_S_S2048x2048 main_cst_16
  let main_v46 : IVec S2048x2048 1 := cmpf .olt main_v44 main_v45
  let main_c_17 : IVec S_ 1 := constantI S_ 1 1#1
  let main_v47 : IVec S_ 1 := (fun x v => Host.reduce IntOp.andi x v reducesTo_S2048x2048_S_d0_1 h_S_) main_v46 main_c_17
  let main_v48 : IVec S_ 1 := andi main_v43 main_v47
  let main_v49 : FVec F S2048x2048 .f32 := Host.absf main_arg10
  let main_cst_18 : FVec F S_ .f32 := constant S_ .f32 0x7F800000#32
  let main_v50 : FVec F S2048x2048 .f32 := broadcastInDim S2048x2048 ![] bcast_S_S2048x2048 main_cst_18
  fn_part3 (F := F) main_arg11 main_arg12 main_v48 main_v49 main_v50

def fn_part1 {F : FTy → Type} [FloatOps F] (main_arg4 : FVec F S1x2048 .f32) (main_arg5 : FVec F S1x2048 .f32) (main_arg6 : FVec F S1x2048 .f32) (main_arg7 : FVec F S1x2048 .f32) (main_arg8 : FVec F S1x2048 .f32) (main_arg9 : FVec F S2048x2048 .f32) (main_arg10 : FVec F S2048x2048 .f32) (main_arg11 : FVec F S2048x2048 .f32) (main_arg12 : FVec F S2048x2048 .f32) (main_v13 : IVec S_ 1) (main_v16 : IVec S16384x2048 1) : IVec S_ 1 :=
  let main_c_5 : IVec S_ 1 := constantI S_ 1 1#1
  let main_v17 : IVec S_ 1 := (fun x v => Host.reduce IntOp.andi x v reducesTo_S16384x2048_S_d0_1 h_S_) main_v16 main_c_5
  let main_v18 : IVec S_ 1 := andi main_v13 main_v17
  let main_v19 : FVec F S1x2048 .f32 := Host.absf main_arg4
  let main_cst_6 : FVec F S_ .f32 := constant S_ .f32 0x7F800000#32
  let main_v20 : FVec F S1x2048 .f32 := broadcastInDim S1x2048 ![] bcast_S_S1x2048 main_cst_6
  let main_v21 : IVec S1x2048 1 := cmpf .olt main_v19 main_v20
  let main_c_7 : IVec S_ 1 := constantI S_ 1 1#1
  let main_v22 : IVec S_ 1 := (fun x v => Host.reduce IntOp.andi x v reducesTo_S1x2048_S_d0_1 h_S_) main_v21 main_c_7
  let main_v23 : IVec S_ 1 := andi main_v18 main_v22
  let main_v24 : FVec F S1x2048 .f32 := Host.absf main_arg5
  let main_cst_8 : FVec F S_ .f32 := constant S_ .f32 0x7F800000#32
  let main_v25 : FVec F S1x2048 .f32 := broadcastInDim S1x2048 ![] bcast_S_S1x2048 main_cst_8
  let main_v26 : IVec S1x2048 1 := cmpf .olt main_v24 main_v25
  let main_c_9 : IVec S_ 1 := constantI S_ 1 1#1
  let main_v27 : IVec S_ 1 := (fun x v => Host.reduce IntOp.andi x v reducesTo_S1x2048_S_d0_1 h_S_) main_v26 main_c_9
  let main_v28 : IVec S_ 1 := andi main_v23 main_v27
  let main_v29 : FVec F S1x2048 .f32 := Host.absf main_arg6
  let main_cst_10 : FVec F S_ .f32 := constant S_ .f32 0x7F800000#32
  let main_v30 : FVec F S1x2048 .f32 := broadcastInDim S1x2048 ![] bcast_S_S1x2048 main_cst_10
  let main_v31 : IVec S1x2048 1 := cmpf .olt main_v29 main_v30
  let main_c_11 : IVec S_ 1 := constantI S_ 1 1#1
  let main_v32 : IVec S_ 1 := (fun x v => Host.reduce IntOp.andi x v reducesTo_S1x2048_S_d0_1 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S16384x2048 .f32) (main_arg1 : FVec F S16384x2048 .f32) (main_arg2 : FVec F S16384x2048 .f32) (main_arg3 : FVec F S16384x2048 .f32) (main_arg4 : FVec F S1x2048 .f32) (main_arg5 : FVec F S1x2048 .f32) (main_arg6 : FVec F S1x2048 .f32) (main_arg7 : FVec F S1x2048 .f32) (main_arg8 : FVec F S1x2048 .f32) (main_arg9 : FVec F S2048x2048 .f32) (main_arg10 : FVec F S2048x2048 .f32) (main_arg11 : FVec F S2048x2048 .f32) (main_arg12 : FVec F S2048x2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S16384x2048 .f32 := Host.absf main_arg1
  let main_cst_0 : FVec F S_ .f32 := constant S_ .f32 0x7F800000#32
  let main_v5 : FVec F S16384x2048 .f32 := broadcastInDim S16384x2048 ![] bcast_S_S16384x2048 main_cst_0
  let main_v6 : IVec S16384x2048 1 := cmpf .olt main_v4 main_v5
  let main_c_1 : IVec S_ 1 := constantI S_ 1 1#1
  let main_v7 : IVec S_ 1 := (fun x v => Host.reduce IntOp.andi x v reducesTo_S16384x2048_S_d0_1 h_S_) main_v6 main_c_1
  let main_v8 : IVec S_ 1 := andi main_v3 main_v7
  let main_v9 : FVec F S16384x2048 .f32 := Host.absf main_arg2
  let main_cst_2 : FVec F S_ .f32 := constant S_ .f32 0x7F800000#32
  let main_v10 : FVec F S16384x2048 .f32 := broadcastInDim S16384x2048 ![] bcast_S_S16384x2048 main_cst_2
  let main_v11 : IVec S16384x2048 1 := cmpf .olt main_v9 main_v10
  let main_c_3 : IVec S_ 1 := constantI S_ 1 1#1
  let main_v12 : IVec S_ 1 := (fun x v => Host.reduce IntOp.andi x v reducesTo_S16384x2048_S_d0_1 h_S_) main_v11 main_c_3
  let main_v13 : IVec S_ 1 := andi main_v8 main_v12
  let main_v14 : FVec F S16384x2048 .f32 := Host.absf main_arg3
  let main_cst_4 : FVec F S_ .f32 := constant S_ .f32 0x7F800000#32
  let main_v15 : FVec F S16384x2048 .f32 := broadcastInDim S16384x2048 ![] bcast_S_S16384x2048 main_cst_4
  let main_v16 : IVec S16384x2048 1 := cmpf .olt main_v14 main_v15
  fn_part1 (F := F) main_arg4 main_arg5 main_arg6 main_arg7 main_arg8 main_arg9 main_arg10 main_arg11 main_arg12 main_v13 main_v16
-- ==== Kernel.lean ====
abbrev S16384x2048 : Shape := ⟨2, ![16384, 2048]⟩
abbrev S1x2048 : Shape := ⟨2, ![1, 2048]⟩
abbrev S2048x2048 : Shape := ⟨2, ![2048, 2048]⟩
abbrev S64x2048 : Shape := ⟨2, ![64, 2048]⟩
abbrev S512x2048 : Shape := ⟨2, ![512, 2048]⟩

abbrev nBuf : Space → Nat
  | .hbm => 22
  | .vmem => 29
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S16384x2048, .f32⟩
  | .hbm, ⟨3, _⟩ => ⟨S16384x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S1x2048, .f32⟩
  | .hbm, ⟨8, _⟩ => ⟨S1x2048, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S2048x2048, .bf16⟩
  | .hbm, ⟨14, _⟩ => ⟨S2048x2048, .bf16⟩
  | .hbm, ⟨15, _⟩ => ⟨S2048x2048, .bf16⟩
  | .hbm, ⟨16, _⟩ => ⟨S2048x2048, .bf16⟩
  | .hbm, ⟨17, _⟩ => ⟨S16384x2048, .f32⟩
  | .hbm, ⟨18, _⟩ => ⟨S16384x2048, .f32⟩
  | .hbm, ⟨19, _⟩ => ⟨S16384x2048, .f32⟩
  | .hbm, ⟨20, _⟩ => ⟨S16384x2048, .bf16⟩
  | .hbm, ⟨21, _⟩ => ⟨S16384x2048, .f32⟩
  | .local _ .vmem, ⟨0, _⟩ => ⟨S64x2048, .f32⟩
  | .local _ .vmem, ⟨1, _⟩ => ⟨S64x2048, .f32⟩
  | .local _ .vmem, ⟨2, _⟩ => ⟨S64x2048, .f32⟩
  | .local _ .vmem, ⟨3, _⟩ => ⟨S64x2048, .f32⟩
  | .local _ .vmem, ⟨4, _⟩ => ⟨S64x2048, .f32⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | .local _ .vmem, ⟨8, _⟩ => ⟨S1x2048, .f32⟩
  | .local _ .vmem, ⟨9, _⟩ => ⟨S1x2048, .f32⟩
  | .local _ .vmem, ⟨10, _⟩ => ⟨S1x2048, .f32⟩
  | .local _ .vmem, ⟨11, _⟩ => ⟨S1x2048, .f32⟩
  | .local _ .vmem, ⟨12, _⟩ => ⟨S1x2048, .f32⟩
  | .local _ .vmem, ⟨13, _⟩ => ⟨S2048x2048, .bf16⟩
  | .local _ .vmem, ⟨14, _⟩ => ⟨S2048x2048, .bf16⟩
  | .local _ .vmem, ⟨15, _⟩ => ⟨S2048x2048, .bf16⟩
  | .local _ .vmem, ⟨16, _⟩ => ⟨S64x2048, .f32⟩
  | .local _ .vmem, ⟨17, _⟩ => ⟨S64x2048, .f32⟩
  | .local _ .vmem, ⟨18, _⟩ => ⟨S64x2048, .f32⟩
  | .local _ .vmem, ⟨19, _⟩ => ⟨S64x2048, .f32⟩
  | .local _ .vmem, ⟨20, _⟩ => ⟨S64x2048, .f32⟩
  | .local _ .vmem, ⟨21, _⟩ => ⟨S64x2048, .f32⟩
  | .local _ .vmem, ⟨22, _⟩ => ⟨S64x2048, .bf16⟩
  | .local _ .vmem, ⟨23, _⟩ => ⟨S64x2048, .bf16⟩
  | .local _ .vmem, ⟨24, _⟩ => ⟨S512x2048, .bf16⟩
  | .local _ .vmem, ⟨25, _⟩ => ⟨S512x2048, .bf16⟩
  | .local _ .vmem, ⟨26, _⟩ => ⟨S2048x2048, .bf16⟩
  | .local _ .vmem, ⟨27, _⟩ => ⟨S512x2048, .f32⟩
  | .local _ .vmem, ⟨28, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4_0 : Ref sig .tc := ⟨.hbm, 17, rfl⟩
abbrev main_v4_1 : Ref sig .tc := ⟨.hbm, 18, rfl⟩
abbrev main_v4_2 : Ref sig .tc := ⟨.hbm, 19, rfl⟩
abbrev main_v4_3 : Ref sig .tc := ⟨.hbm, 20, rfl⟩
abbrev main_v5 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc1_stg0_0 : Ref sig .tc := ⟨.vmem, 24, rfl⟩
abbrev cc1_stg0_1 : Ref sig .tc := ⟨.vmem, 25, rfl⟩
abbrev cc1_stg1_0 : Ref sig .tc := ⟨.vmem, 26, rfl⟩
abbrev cc1_stg2_0 : Ref sig .tc := ⟨.vmem, 27, rfl⟩
abbrev cc1_stg2_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc1_sem0_0 : DmaSem sig := 24
abbrev cc1_sem0_1 : DmaSem sig := 25
abbrev cc1_sem1_0 : DmaSem sig := 26
abbrev cc1_sem2_0 : DmaSem sig := 27
abbrev cc1_sem2_1 : DmaSem sig := 28

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2048x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2048x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S64x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S64x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S64x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S64x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bitsLt_bf16_f32 : FTy.bits .bf16 < FTy.bits .f32
  inb_S64x2048_S64x2048_0_0 : ∀ a, (![0, 0] : Fin 2 → Nat) a + S64x2048.size a ≤ S64x2048.size a
  h_S64x2048 : 0 < S64x2048.numel
  inb_S1x2048_S1x2048_0_0 : ∀ a, (![0, 0] : Fin 2 → Nat) a + S1x2048.size a ≤ S1x2048.size a
  h_S1x2048 : 0 < S1x2048.numel
  broadcasts_S1x2048_S64x2048 : S1x2048.Broadcasts S64x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  packedbf16_S64x2048_S64x2048_0_0 : (Rect.unit (s := S64x2048) ![0, 0] S64x2048.size inb_S64x2048_S64x2048_0_0).PackedRows (EltTy.packing .bf16)
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  dot_S64x2048_S2048x2048_S64x2048_1_0_0_1_n_n_wf : DotDims.WF S64x2048 S2048x2048 S64x2048 [1] [0] [0] [1] [] []
  dot_S512x2048_S2048x2048_S512x2048_1_0_0_1_n_n_wf : DotDims.WF S512x2048 S2048x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x2048.size a ≤ S16384x2048.size a
  hwx0_0 : ∀ i : grid0.Coords, EltTy.bits .f32 = 32 ∨ (Rect.block (s := S16384x2048) S64x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x2048.size a ≤ S16384x2048.size a
  hwx0_1 : ∀ i : grid0.Coords, EltTy.bits .f32 = 32 ∨ (Rect.block (s := S16384x2048) S64x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x2048.size a ≤ S16384x2048.size a
  hwx0_2 : ∀ i : grid0.Coords, EltTy.bits .f32 = 32 ∨ (Rect.block (s := S16384x2048) S64x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x2048.size a ≤ S16384x2048.size a
  hwx0_3 : ∀ i : grid0.Coords, EltTy.bits .f32 = 32 ∨ (Rect.block (s := S16384x2048) S64x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x2048.size a
  hwx0_5 : ∀ i : grid0.Coords, EltTy.bits .f32 = 32 ∨ (Rect.block (s := S1x2048) S1x2048.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2048.size a ≤ S1x2048.size a
  hwx0_6 : ∀ i : grid0.Coords, EltTy.bits .f32 = 32 ∨ (Rect.block (s := S1x2048) S1x2048.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x2048.size a ≤ S1x2048.size a
  hwx0_7 : ∀ i : grid0.Coords, EltTy.bits .f32 = 32 ∨ (Rect.block (s := S1x2048) S1x2048.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x2048.size a ≤ S1x2048.size a
  hwx0_8 : ∀ i : grid0.Coords, EltTy.bits .f32 = 32 ∨ (Rect.block (s := S1x2048) S1x2048.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S2048x2048.size a ≤ S2048x2048.size a
  hwx0_9 : ∀ i : grid0.Coords, EltTy.bits .bf16 = 32 ∨ (Rect.block (s := S2048x2048) S2048x2048.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S2048x2048.size a ≤ S2048x2048.size a
  hwx0_10 : ∀ i : grid0.Coords, EltTy.bits .bf16 = 32 ∨ (Rect.block (s := S2048x2048) S2048x2048.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S2048x2048.size a ≤ S2048x2048.size a
  hwx0_11 : ∀ i : grid0.Coords, EltTy.bits .bf16 = 32 ∨ (Rect.block (s := S2048x2048) S2048x2048.size (cc0_transform_11 i) (hinb0_11 i)).WholeWords (EltTy.packing .bf16)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S64x2048.size a ≤ S16384x2048.size a
  hwx0_12 : ∀ i : grid0.Coords, EltTy.bits .f32 = 32 ∨ (Rect.block (s := S16384x2048) S64x2048.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S64x2048.size a ≤ S16384x2048.size a
  hwx0_13 : ∀ i : grid0.Coords, EltTy.bits .f32 = 32 ∨ (Rect.block (s := S16384x2048) S64x2048.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S64x2048.size a ≤ S16384x2048.size a
  hwx0_14 : ∀ i : grid0.Coords, EltTy.bits .f32 = 32 ∨ (Rect.block (s := S16384x2048) S64x2048.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S64x2048.size a ≤ S16384x2048.size a
  hwx0_15 : ∀ i : grid0.Coords, EltTy.bits .bf16 = 32 ∨ (Rect.block (s := S16384x2048) S64x2048.size (cc0_transform_15 i) (hinb0_15 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S16384x2048.size a
  hwx1_0 : ∀ i : grid1.Coords, EltTy.bits .bf16 = 32 ∨ (Rect.block (s := S16384x2048) S512x2048.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x2048.size a ≤ S2048x2048.size a
  hwx1_1 : ∀ i : grid1.Coords, EltTy.bits .bf16 = 32 ∨ (Rect.block (s := S2048x2048) S2048x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x2048.size a ≤ S16384x2048.size a
  hwx1_2 : ∀ i : grid1.Coords, EltTy.bits .f32 = 32 ∨ (Rect.block (s := S16384x2048) S512x2048.size (cc1_transform_2 i) (hinb1_2 i)).WholeWords (EltTy.packing .f32)

variable [Facts₀]

def dot_S64x2048_S2048x2048_S64x2048_1_0_0_1_n_n : DotDims S64x2048 S2048x2048 S64x2048 where
  lhsContracting := [1]
  rhsContracting := [0]
  lhsNonContracting := [0]
  rhsNonContracting := [1]
  lhsBatch := []
  rhsBatch := []
  wf := dot_S64x2048_S2048x2048_S64x2048_1_0_0_1_n_n_wf
def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf

abbrev win0_0 : Pipeline.Window sig grid0 :=
  Pipeline.Window.ofSpec (Memref.whole main_arg0) S64x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1x2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1x2048.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v0) S2048x2048.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v1) S2048x2048.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v2) S2048x2048.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v4_0) S64x2048.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v4_1) S64x2048.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v4_2) S64x2048.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v4_3) S64x2048.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

abbrev win1_0 : Pipeline.Window sig grid1 :=
  Pipeline.Window.ofSpec (Memref.whole main_v4_3) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S2048x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S512x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S16384x2048 : Shape := ⟨2, ![16384, 2048]⟩
abbrev S1x2048 : Shape := ⟨2, ![1, 2048]⟩
abbrev S2048x2048 : Shape := ⟨2, ![2048, 2048]⟩
abbrev S_ : Shape := ⟨0, ![]⟩

abbrev nBuf : Space → Nat
  | .hbm => 75
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S16384x2048, .f32⟩
  | .hbm, ⟨3, _⟩ => ⟨S16384x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S1x2048, .f32⟩
  | .hbm, ⟨8, _⟩ => ⟨S1x2048, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S16384x2048, .f32⟩
  | .hbm, ⟨14, _⟩ => ⟨S16384x2048, .f32⟩
  | .hbm, ⟨15, _⟩ => ⟨S_, .f32⟩
  | .hbm, ⟨16, _⟩ => ⟨S1x2048, .f32⟩
  | .hbm, ⟨17, _⟩ => ⟨S1x2048, .f32⟩
  | .hbm, ⟨18, _⟩ => ⟨S16384x2048, .f32⟩
  | .hbm, ⟨19, _⟩ => ⟨S16384x2048, .f32⟩
  | .hbm, ⟨20, _⟩ => ⟨S16384x2048, .f32⟩
  | .hbm, ⟨21, _⟩ => ⟨S16384x2048, .f32⟩
  | .hbm, ⟨22, _⟩ => ⟨S16384x2048, .f32⟩
  | .hbm, ⟨23, _⟩ => ⟨S_, .f32⟩
  | .hbm, ⟨24, _⟩ => ⟨S1x2048, .f32⟩
  | .hbm, ⟨25, _⟩ => ⟨S1x2048, .f32⟩
  | .hbm, ⟨26, _⟩ => ⟨S16384x2048, .f32⟩
  | .hbm, ⟨27, _⟩ => ⟨S16384x2048, .f32⟩
  | .hbm, ⟨28, _⟩ => ⟨S16384x2048, .f32⟩
  | .hbm, ⟨29, _⟩ => ⟨S16384x2048, .f32⟩
  | .hbm, ⟨30, _⟩ => ⟨S16384x2048, .f32⟩
  | .hbm, ⟨31, _⟩ => ⟨S_, .f32⟩
  | .hbm, ⟨32, _⟩ => ⟨S1x2048, .f32⟩
  | .hbm, ⟨33, _⟩ => ⟨S1x2048, .f32⟩
  | .hbm, ⟨34, _⟩ => ⟨S16384x2048, .f32⟩
  | .hbm, ⟨35, _⟩ => ⟨S16384x2048, .f32⟩
  | .hbm, ⟨36, _⟩ => ⟨S16384x2048, .f32⟩
  | .hbm, ⟨37, _⟩ => ⟨S16384x2048, .f32⟩
  | .hbm, ⟨38, _⟩ => ⟨S16384x2048, .f32⟩
  | .hbm, ⟨39, _⟩ => ⟨S16384x2048, .f32⟩
  | .hbm, ⟨40, _⟩ => ⟨S_, .f32⟩
  | .hbm, ⟨41, _⟩ => ⟨S16384x2048, .f32⟩
  | .hbm, ⟨42, _⟩ => ⟨S16384x2048, .f32⟩
  | .hbm, ⟨43, _⟩ => ⟨S_, .f32⟩
  | .hbm, ⟨44, _⟩ => ⟨S16384x2048, .f32⟩
  | .hbm, ⟨45, _⟩ => ⟨S16384x2048, .f32⟩
  | .hbm, ⟨46, _⟩ => ⟨S16384x2048, .f32⟩
  | .hbm, ⟨47, _⟩ => ⟨S16384x2048, .f32⟩
  | .hbm, ⟨48, _⟩ => ⟨S16384x2048, .f32⟩
  | .hbm, ⟨49, _⟩ => ⟨S16384x2048, .f32⟩
  | .hbm, ⟨50, _⟩ => ⟨S16384x2048, .f32⟩
  | .hbm, ⟨51, _⟩ => ⟨S16384x2048, .f32⟩
  | .hbm, ⟨52, _⟩ => ⟨S16384x2048, .f32⟩
  | .hbm, ⟨53, _⟩ => ⟨S16384x2048, .f32⟩
  | .hbm, ⟨54, _⟩ => ⟨S16384x2048, .f32⟩
  | .hbm, ⟨55, _⟩ => ⟨S16384x2048, .f32⟩
  | .hbm, ⟨56, _⟩ => ⟨S16384x2048, .f32⟩
  | .hbm, ⟨57, _⟩ => ⟨S16384x2048, .f32⟩
  | .hbm, ⟨58, _⟩ => ⟨S16384x2048, .f32⟩
  | .hbm, ⟨59, _⟩ => ⟨S16384x2048, .f32⟩
  | .hbm, ⟨60, _⟩ => ⟨S16384x2048, .f32⟩
  | .hbm, ⟨61, _⟩ => ⟨S16384x2048, .f32⟩
  | .hbm, ⟨62, _⟩ => ⟨S16384x2048, .f32⟩
  | .hbm, ⟨63, _⟩ => ⟨S16384x2048, .f32⟩
  | .hbm, ⟨64, _⟩ => ⟨S16384x2048, .f32⟩
  | .hbm, ⟨65, _⟩ => ⟨S16384x2048, .f32⟩
  | .hbm, ⟨66, _⟩ => ⟨S16384x2048, .f32⟩
  | .hbm, ⟨67, _⟩ => ⟨S16384x2048, .f32⟩
  | .hbm, ⟨68, _⟩ => ⟨S16384x2048, .f32⟩
  | .hbm, ⟨69, _⟩ => ⟨S16384x2048, .f32⟩
  | .hbm, ⟨70, _⟩ => ⟨S16384x2048, .f32⟩
  | .hbm, ⟨71, _⟩ => ⟨S16384x2048, .f32⟩
  | .hbm, ⟨72, _⟩ => ⟨S16384x2048, .f32⟩
  | .hbm, ⟨73, _⟩ => ⟨S16384x2048, .f32⟩
  | .hbm, ⟨74, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_1 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_2 : Ref sig .tc := ⟨.hbm, 40, rfl⟩
abbrev main_v24 : Ref sig .tc := ⟨.hbm, 41, rfl⟩
abbrev main_v25 : Ref sig .tc := ⟨.hbm, 42, rfl⟩
abbrev main_cst_3 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩

abbrev nD : Nat := 1
abbrev τ : Topo := Topo.v7x

variable {F : FTy → Type} [FloatOps F]

class Facts₀ : Prop where
  bcast_S1x2048_S16384x2048_0_1 : S1x2048.BroadcastsInDim S16384x2048 (![0, 1] : Fin 2 → Fin S16384x2048.rank)
  bcast_S_S1x2048 : S_.BroadcastsInDim S1x2048 (![] : Fin 0 → Fin S1x2048.rank)
  bcast_S_S16384x2048 : S_.BroadcastsInDim S16384x2048 (![] : Fin 0 → Fin S16384x2048.rank)
  dot_S16384x2048_S2048x2048_S16384x2048_1_0_0_1_n_n_wf : DotDims.WF S16384x2048 S2048x2048 S16384x2048 [1] [0] [0] [1] [] []

variable [Facts₀]

def dot_S16384x2048_S2048x2048_S16384x2048_1_0_0_1_n_n : DotDims S16384x2048 S2048x2048 S16384x2048 where
  lhsContracting := [1]
  rhsContracting := [0]
  lhsNonContracting := [0]
  rhsNonContracting := [1]
  lhsBatch := []
  rhsBatch := []
  wf := dot_S16384x2048_S2048x2048_S16384x2048_1_0_0_1_n_n_wf

class Facts : Prop extends Facts₀ where

variable [Facts]
-- ==== Proof.RunNamed.lean ====
/-
  The idealized kernel's run, with its results named.

  @main is a stretch of host operations (the four weights narrowed to sixteen bits) followed by the two kernels. The
  generated frame walks the buffer contents through these three segments, from the launch memory to the contents
  `Gen.W3` at the return, and then keeps only the thirteen arguments. Here the same walk is stated for ANY property of
  the final memory that follows from "every buffer that outlives the kernels holds `Gen.W3`'s contents", and then
  read at the four results and the thirteen arguments.
-/
import proofs.«145627_j52621939310636_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, in a final memory where every buffer that
    outlives the kernels holds the contents the walk through the three segments ends at; so any property of the final
    memory that follows from that holds. -/
theorem run_of {Q : PUnit × MemSt nD τ sig (Elt F) → Prop}
    (hQ : ∀ s : MemSt nD τ sig (Elt F),
      (∀ c : Dev nD, ∀ b ∈ Pipeline.ucRefs τ sig, s.mem (((c : Thread nD τ)).1, b) = W3 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := hQ)

/-- The run with the four results named: each ends at the walk's final contents of its buffer, and the thirteen
    arguments end as launched. -/
theorem run : θ_run defs (onTc (τ := τ) (main (F := F))) ⟨m, fun _ => 0, ρ⟩ (fun r => ∀ c : Dev nD,
      r.2.mem ((c.tc : Thread nD τ).loc main_v5) = W3 m ρ c (Proc.devRef .tc main_v5)
      ∧ r.2.mem ((c.tc : Thread nD τ).loc main_v4_0) = W3 m ρ c (Proc.devRef .tc main_v4_0)
      ∧ r.2.mem ((c.tc : Thread nD τ).loc main_v4_1) = W3 m ρ c (Proc.devRef .tc main_v4_1)
      ∧ r.2.mem ((c.tc : Thread nD τ).loc main_v4_2) = W3 m ρ c (Proc.devRef .tc main_v4_2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  run_of m ρ fun s h c =>
    ⟨h c _ (mem_uc main_v5 (by decide)),
     h c _ (mem_uc main_v4_0 (by decide)),
     h c _ (mem_uc main_v4_1 (by decide)),
     h c _ (mem_uc main_v4_2 (by decide)),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c),
     (h c _ (mem_uc main_arg6 (by decide))).trans (W3_main_arg6 m ρ c),
     (h c _ (mem_uc main_arg7 (by decide))).trans (W3_main_arg7 m ρ c),
     (h c _ (mem_uc main_arg8 (by decide))).trans (W3_main_arg8 m ρ c),
     (h c _ (mem_uc main_arg9 (by decide))).trans (W3_main_arg9 m ρ c),
     (h c _ (mem_uc main_arg10 (by decide))).trans (W3_main_arg10 m ρ c),
     (h c _ (mem_uc main_arg11 (by decide))).trans (W3_main_arg11 m ρ c),
     (h c _ (mem_uc main_arg12 (by decide))).trans (W3_main_arg12 m ρ c)⟩

end Cert.KernelIdeal.Named

end
-- ==== Proof.Spec.lean ====
/-
  The time-mixing step, entry by entry, over the extended reals.

  Inputs: four 16384×2048 arrays x, a, b, p (the token and the running numerator, denominator and exponent of the
  state), five 1×2048 rows (three mixing coefficients μ, the bonus u and the decay w) and four 2048×2048 weights.

  For a mixing row μ the mixed token is x·μ + a·(1 − μ), column by column, and its image under a weight W is the
  matrix product (mix · W)(r, j) = ∑ k, mix(r, k) · W(k, j). With k, v the images under the key and value weights and
  ρ the image under the receptance weight, at every entry

      out-of-state:  q = max p (u + k),  wkv = (e^(p − q)·a + e^(u + k − q)·v) / (e^(p − q)·b + e^(u + k − q))
      next state:    q' = max (p + w) k,  a' = e^(p + w − q')·a + e^(k − q')·v,  b' = e^(p + w − q')·b + e^(k − q'),  p' = q'

  and the output is the matrix product of σ(ρ)·wkv with the output weight, σ the logistic function. Every operation
  is the extended reals' (the quotient and the exponential with their conventions at the infinities), and the number
  one is kept as the value of its 32-bit float word: both programs write that word.
-/
import Idealize.ShloMosaic.Lib.ValueIdx
import Idealize.ShloMosaic.PureOps.Ideal
import Idealize.ShloMosaic.PureOps.IdealRules

noncomputable section

open scoped BigOperators

namespace Cert.TimeMix

open Idealize.ShloMosaic Idealize.ShloMosaic.ValueIdx

/-- The thirteen arguments, as functions of an index into the extended reals. -/
structure Inputs where
  x : (⟨2, ![16384, 2048]⟩ : Shape).Idx → EReal
  a : (⟨2, ![16384, 2048]⟩ : Shape).Idx → EReal
  b : (⟨2, ![16384, 2048]⟩ : Shape).Idx → EReal
  p : (⟨2, ![16384, 2048]⟩ : Shape).Idx → EReal
  μk : (⟨2, ![1, 2048]⟩ : Shape).Idx → EReal
  μv : (⟨2, ![1, 2048]⟩ : Shape).Idx → EReal
  μr : (⟨2, ![1, 2048]⟩ : Shape).Idx → EReal
  u : (⟨2, ![1, 2048]⟩ : Shape).Idx → EReal
  w : (⟨2, ![1, 2048]⟩ : Shape).Idx → EReal
  Wk : (⟨2, ![2048, 2048]⟩ : Shape).Idx → EReal
  Wv : (⟨2, ![2048, 2048]⟩ : Shape).Idx → EReal
  Wr : (⟨2, ![2048, 2048]⟩ : Shape).Idx → EReal
  Wo : (⟨2, ![2048, 2048]⟩ : Shape).Idx → EReal

/-- The value of the 32-bit float word of 1.0. -/
def one : EReal := Ideal.ofBits .f32 0x3F800000#32

/-- That word denotes the number one. -/
theorem one_eq : one = 1 := IdealRules.sign_bit.ideal_onePat .f32

/-- The mixed token x·μ + a·(1 − μ) at row r, column j. -/
def mix (x a : (⟨2, ![16384, 2048]⟩ : Shape).Idx → EReal) (μ : (⟨2, ![1, 2048]⟩ : Shape).Idx → EReal)
    (r : Fin 16384) (j : Fin 2048) : EReal :=
  x (ix2 r j) * μ (ix2 0 j) + a (ix2 r j) * (one - μ (ix2 0 j))

/-- The mixed token times a weight matrix, at row r, column j. -/
def proj (x a : (⟨2, ![16384, 2048]⟩ : Shape).Idx → EReal) (μ : (⟨2, ![1, 2048]⟩ : Shape).Idx → EReal)
    (W : (⟨2, ![2048, 2048]⟩ : Shape).Idx → EReal) (r : Fin 16384) (j : Fin 2048) : EReal :=
  ∑ k : Fin 2048, mix x a μ r k * W (ix2 k j)

/-- The next exponent q' = max (p + w) k. -/
def nextP (p w k : EReal) : EReal := max (p + w) k

/-- The next numerator e^(p + w − q')·a + e^(k − q')·v. -/
def nextA (a p w k v : EReal) : EReal :=
  Ideal.exp (p + w - nextP p w k) * a + Ideal.exp (k - nextP p w k) * v

/-- The next denominator e^(p + w − q')·b + e^(k − q'). -/
def nextB (b p w k : EReal) : EReal :=
  Ideal.exp (p + w - nextP p w k) * b + Ideal.exp (k - nextP p w k)

/-- The weighted average read out of the state, with the bonus u on the current token:
    (e^(p − q)·a + e^(u + k − q)·v) / (e^(p − q)·b + e^(u + k − q)), q = max p (u + k). -/
def wkv (a b p u k v : EReal) : EReal :=
  Ideal.div (Ideal.exp (p - max p (u + k)) * a + Ideal.exp (u + k - max p (u + k)) * v)
    (Ideal.exp (p - max p (u + k)) * b + Ideal.exp (u + k - max p (u + k)))

/-- The key k, the value v and the receptance ρ at an entry. -/
def key (I : Inputs) (r : Fin 16384) (j : Fin 2048) : EReal := proj I.x I.a I.μk I.Wk r j
def value (I : Inputs) (r : Fin 16384) (j : Fin 2048) : EReal := proj I.x I.a I.μv I.Wv r j
def recept (I : Inputs) (r : Fin 16384) (j : Fin 2048) : EReal := proj I.x I.a I.μr I.Wr r j

/-- The gated read-out σ(ρ)·wkv at an entry. -/
def gated (I : Inputs) (r : Fin 16384) (j : Fin 2048) : EReal :=
  Ideal.logistic (recept I r j)
    * wkv (I.a (ix2 r j)) (I.b (ix2 r j)) (I.p (ix2 r j)) (I.u (ix2 0 j)) (key I r j) (value I r j)

/-- The four results, as whole arrays. -/
def newA (I : Inputs) : (⟨2, ![16384, 2048]⟩ : Shape).Idx → EReal := fun i =>
  nextA (I.a (ix2 (i 0) (i 1))) (I.p (ix2 (i 0) (i 1))) (I.w (ix2 0 (i 1))) (key I (i 0) (i 1)) (value I (i 0) (i 1))

def newB (I : Inputs) : (⟨2, ![16384, 2048]⟩ : Shape).Idx → EReal := fun i =>
  nextB (I.b (ix2 (i 0) (i 1))) (I.p (ix2 (i 0) (i 1))) (I.w (ix2 0 (i 1))) (key I (i 0) (i 1))

def newP (I : Inputs) : (⟨2, ![16384, 2048]⟩ : Shape).Idx → EReal := fun i =>
  nextP (I.p (ix2 (i 0) (i 1))) (I.w (ix2 0 (i 1))) (key I (i 0) (i 1))

/-- The gated read-out as a whole array: what the first kernel hands to the second. -/
def gatedArr (I : Inputs) : (⟨2, ![16384, 2048]⟩ : Shape).Idx → EReal := fun i => gated I (i 0) (i 1)

/-- The output: the gated read-out times the output weight. -/
def out (I : Inputs) : (⟨2, ![16384, 2048]⟩ : Shape).Idx → EReal := fun i =>
  ∑ k : Fin 2048, gated I (i 0) k * I.Wo (ix2 k (i 1))

end Cert.TimeMix

end
-- ==== Proof.LibPlainDot.lean ====
/-
  A matrix product with the plain dimension numbers — an n×a operand times an a×b operand, contracted over the one
  shared axis, no batch axis — read at an entry, at the ideal values, for any extents n, a, b.

  At the ideal values a `tpu.matmul` into the zero accumulator and the host's `dot_general` are both the sum, over the
  contraction index, of the products of the two operands' entries. The contraction index of the plain dimension numbers
  is a rank-1 index of extent a; re-indexing the sum by its one coordinate k gives

      (L · R)(p, o) = ∑ k < a, L(p, k) · R(k, o).

  A dimension-number record of a printed program that lists the same six axis lists IS `DotDims.plain n a b` (the
  record's other field is a proof), by `rfl`.
-/
import Idealize.ShloMosaic.Lib.ValueIdx
import Idealize.ShloMosaic.PureOps.Ideal.Laws

noncomputable section

open scoped BigOperators

namespace Cert.LibPlainDot

open Idealize.ShloMosaic Idealize.ShloMosaic.ValueIdx

variable {n a b : ℕ}

/-- The plain dimension numbers contract one axis … -/
theorem contr_rank : (DotDims.plain n a b).contr.rank = 1 := rfl

/-- … of extent `a`. -/
theorem contr_size : (DotDims.plain n a b).contr.size ⟨0, by rw [contr_rank]; exact Nat.one_pos⟩ = a := rfl

/-- The left operand is read at row `i 0` … -/
theorem lhs_row (i : (⟨2, ![n, b]⟩ : Shape).Idx) (q : (DotDims.plain n a b).contr.Idx) :
    ((DotDims.plain n a b).lhsIdx i q (0 : Fin 2)).val = (i 0).val := rfl

/-- … and at the contraction position's column; -/
theorem lhs_col (i : (⟨2, ![n, b]⟩ : Shape).Idx) (q : (DotDims.plain n a b).contr.Idx) :
    ((DotDims.plain n a b).lhsIdx i q (1 : Fin 2)).val = (q ⟨0, by rw [contr_rank]; exact Nat.one_pos⟩).val :=
  (DotDims.plain n a b).lhsIdx_val_of_single rfl i q

/-- the right operand at the contraction position's row … -/
theorem rhs_row (i : (⟨2, ![n, b]⟩ : Shape).Idx) (q : (DotDims.plain n a b).contr.Idx) :
    ((DotDims.plain n a b).rhsIdx i q (0 : Fin 2)).val = (q ⟨0, by rw [contr_rank]; exact Nat.one_pos⟩).val :=
  (DotDims.plain n a b).rhsIdx_val_of_single rfl i q

/-- … and at column `i 1`. -/
theorem rhs_col (i : (⟨2, ![n, b]⟩ : Shape).Idx) (q : (DotDims.plain n a b).contr.Idx) :
    ((DotDims.plain n a b).rhsIdx i q (1 : Fin 2)).val = (i 1).val := rfl

/-- The sum over the contraction index of the plain dimension numbers, re-indexed by its one coordinate. -/
theorem sum_contr (L : FVec Ideal ⟨2, ![n, a]⟩ .f32) (R : FVec Ideal ⟨2, ![a, b]⟩ .f32) (p : Fin n) (o : Fin b) :
    (∑ q : (DotDims.plain n a b).contr.Idx,
        L ((DotDims.plain n a b).lhsIdx (ix2 p o) q) * R ((DotDims.plain n a b).rhsIdx (ix2 p o) q))
      = ∑ k : Fin a, L (ix2 p k) * R (ix2 k o) := by
  rw [← Equiv.sum_comp (contrEquiv1 (DotDims.plain n a b) a contr_rank contr_size).symm]
  refine Finset.sum_congr rfl fun k _ => ?_
  have hk := contrEquiv1_symm_val (DotDims.plain n a b) a contr_rank contr_size k
  have el : (DotDims.plain n a b).lhsIdx (ix2 p o) ((contrEquiv1 (DotDims.plain n a b) a contr_rank contr_size).symm k)
      = ix2 p k := funext fun c => Fin.ext (by
    match c with
    | ⟨0, _⟩ => exact lhs_row _ _
    | ⟨1, _⟩ => exact (lhs_col _ _).trans hk)
  have er : (DotDims.plain n a b).rhsIdx (ix2 p o) ((contrEquiv1 (DotDims.plain n a b) a contr_rank contr_size).symm k)
      = ix2 k o := funext fun c => Fin.ext (by
    match c with
    | ⟨0, _⟩ => exact (rhs_row _ _).trans hk
    | ⟨1, _⟩ => exact rhs_col _ _)
  rw [el, er]

/-- A `tpu.matmul` with the plain dimension numbers into the zero accumulator, at entry (p, o). -/
theorem matmul_zero_apply (prec : Option ContractPrecision) (L : FVec Ideal ⟨2, ![n, a]⟩ .f32)
    (R : FVec Ideal ⟨2, ![a, b]⟩ .f32) (p : Fin n) (o : Fin b) :
    matmul (DotDims.plain n a b) prec L R (constant ⟨2, ![n, b]⟩ .f32 0x00000000#32) (ix2 p o)
      = ∑ k : Fin a, L (ix2 p k) * R (ix2 k o) :=
  (Ideal.matmul_constant_zero_apply (DotDims.plain n a b) prec L R (ix2 p o)).trans (sum_contr L R p o)

/-- The host's `dot_general` with the plain dimension numbers, at entry (p, o). -/
theorem dotGeneral_apply (prec : Option ContractPrecision) (L : FVec Ideal ⟨2, ![n, a]⟩ .f32)
    (R : FVec Ideal ⟨2, ![a, b]⟩ .f32) (p : Fin n) (o : Fin b) :
    Host.dotGeneral (DotDims.plain n a b) prec L R (ix2 p o) = ∑ k : Fin a, L (ix2 p k) * R (ix2 k o) := by
  simp only [Host.dotGeneral]
  exact (Ideal.dotGeneral_apply (DotDims.plain n a b) prec _ L R (ix2 p o)).trans (sum_contr L R p o)

end Cert.LibPlainDot

end
-- ==== Proof.MatEntry.lean ====
/-
  A matrix product into the zero accumulator, read at an entry, whatever float formats its two operands carry.

  At the ideal values a change of float format is the identity, so a product whose operands were narrowed to sixteen
  bits is still the plain sum (L · R)(p, o) = ∑ k, L(p, k) · R(k, o) of the entries' products over the shared axis.
-/
import proofs.«145627_j52621939310636_2_alg».proof.Proof.LibPlainDot

noncomputable section

open scoped BigOperators

namespace Cert.TimeMix

open Idealize.ShloMosaic Idealize.ShloMosaic.ValueIdx

/-- An n×a operand times an a×b operand into the zero accumulator, at entry (p, o): the sum over the shared axis. -/
theorem matmul_entry {n a b : ℕ} {φ₁ φ₂ : FTy} (prec : Option ContractPrecision)
    (L : FVec Ideal ⟨2, ![n, a]⟩ φ₁) (R : FVec Ideal ⟨2, ![a, b]⟩ φ₂) (p : Fin n) (o : Fin b) :
    matmul (DotDims.plain n a b) prec L R (constant ⟨2, ![n, b]⟩ .f32 0x00000000#32) (ix2 p o)
      = ∑ k : Fin a, L (ix2 p k) * R (ix2 k o) :=
  (Ideal.matmul_constant_zero_apply (DotDims.plain n a b) prec L R (ix2 p o)).trans
    (Cert.LibPlainDot.sum_contr L R p o)

end Cert.TimeMix

end
-- ==== Proof.Payload.lean ====
/-
  The kernel's arithmetic, read at one entry of a block.

  A body sees 64 consecutive rows of the four big arrays (512 rows of the gated read-out in the second kernel), the
  five rows of 2048 coefficients and the weights whole. Along any map ρ from the block's rows to the arrays' rows by
  which the blocks read the arrays, every value the body stores is, at block entry (p, q), the specification at
  array entry (ρ p, q):

    • a row of coefficients repeated over the block's rows reads, at (p, q), the row's entry q, and the word of 1.0
      repeated along a row is that word's value, so each of the three mixes x·μ + a·(1 − μ) is the specification's
      mix at (ρ p, k);
    • narrowing to sixteen bits and a reshape to the same shape change nothing at the ideal values, and a matrix
      product into the zero accumulator is, at (p, q), the sum over k of the products of the entries: the three
      projections are the key, the value and the receptance at (ρ p, q);
    • what remains is pointwise: the next exponent max (p + w) k, the two exponentials of the state update, the next
      numerator and denominator, and the logistic gate times the weighted average, term for term the
      specification's;
    • the second kernel's product of the gated read-out with the output weight is the output's sum over k.
-/
import proofs.«145627_j52621939310636_2_alg».proof.Proof.Gen.KernelIdeal.Skeleton
import proofs.«145627_j52621939310636_2_alg».proof.Proof.Spec
import proofs.«145627_j52621939310636_2_alg».proof.Proof.MatEntry
import Idealize.ShloMosaic.Lib.Pipeline.Value

noncomputable section
namespace Cert.KernelIdeal.Payload
open Cert.KernelIdeal Cert.KernelIdeal.Gen Idealize.ShloMosaic Idealize.ShloMosaic.ValueIdx

open scoped BigOperators

/-- A row of 2048 entries repeated over 64 rows reads, at (p, q), the row's entry q. -/
theorem row_bcast {α : Type} (v : S1x2048.Idx → α) (p : Fin 64) (q : Fin 2048) :
    broadcastTo S64x2048 v broadcasts_S1x2048_S64x2048 (ix2 p q) = v (ix2 0 q) :=
  broadcastTo_apply v broadcasts_S1x2048_S64x2048 (ix2 p q) (ix2 0 q) fun a => by
    match a with
    | ⟨0, _⟩ => rfl
    | ⟨1, _⟩ => rfl

section first
variable (I : Cert.TimeMix.Inputs) (ρ : Fin 64 → Fin 16384)
  (x0 x1 x2 x3 : Vec Ideal S64x2048 .f32)
  (h0 : ∀ (p : Fin 64) (q : Fin 2048), x0 (ix2 p q) = I.x (ix2 (ρ p) q))
  (h1 : ∀ (p : Fin 64) (q : Fin 2048), x1 (ix2 p q) = I.a (ix2 (ρ p) q))
  (h2 : ∀ (p : Fin 64) (q : Fin 2048), x2 (ix2 p q) = I.b (ix2 (ρ p) q))
  (h3 : ∀ (p : Fin 64) (q : Fin 2048), x3 (ix2 p q) = I.p (ix2 (ρ p) q))
  (p : Fin 64) (q : Fin 2048)

/-! ### The three mixes -/

include h0 h1 in
/-- The mixed token x·μ + a·(1 − μ) of a block, at (p, k), is the specification's mix at (ρ p, k). -/
theorem mix_entry (μ : Vec Ideal S1x2048 .f32) (k : Fin 2048) :
    addf (mulf x0 (broadcastTo S64x2048 μ broadcasts_S1x2048_S64x2048))
        (mulf x1 (broadcastTo S64x2048
          (subf (broadcast S1x2048 (Scalar.ofBits (F := Ideal) .f32 0x3F800000#32)) μ) broadcasts_S1x2048_S64x2048))
        (ix2 p k)
      = Cert.TimeMix.mix I.x I.a μ (ρ p) k := by
  show x0 (ix2 p k) * broadcastTo S64x2048 μ broadcasts_S1x2048_S64x2048 (ix2 p k)
      + x1 (ix2 p k) * broadcastTo S64x2048
          (subf (broadcast S1x2048 (Scalar.ofBits (F := Ideal) .f32 0x3F800000#32)) μ) broadcasts_S1x2048_S64x2048 (ix2 p k)
      = _
  rw [row_bcast, row_bcast, h0, h1]
  rfl

include h0 h1 in
/-- The receptance mix at (p, k). -/
theorem receptMix_entry (k : Fin 2048) :
    k0_pay9 (F := Ideal) x0 x1 I.μr (ix2 p k) = Cert.TimeMix.mix I.x I.a I.μr (ρ p) k :=
  mix_entry I ρ x0 x1 h0 h1 p I.μr k

include h0 h1 in
/-- The value mix at (p, k): narrowing it to sixteen bits changes nothing. -/
theorem valueMix_entry (k : Fin 2048) :
    k0_pay11 (F := Ideal) x0 x1 I.μv (ix2 p k) = Cert.TimeMix.mix I.x I.a I.μv (ρ p) k :=
  mix_entry I ρ x0 x1 h0 h1 p I.μv k

/-! ### The three projections -/

include h0 h1 in
/-- The key at (p, q): the key mix times the key weight. -/
theorem key_entry : k0_pay10 (F := Ideal) x0 x1 I.μk I.Wk (ix2 p q) = Cert.TimeMix.key I (ρ p) q := by
  unfold k0_pay10
  refine (Cert.TimeMix.matmul_entry (n := 64) (a := 2048) (b := 2048) none _ _ p q).trans ?_
  show _ = ∑ k : Fin 2048, Cert.TimeMix.mix I.x I.a I.μk (ρ p) k * I.Wk (ix2 k q)
  refine Finset.sum_congr rfl fun k _ => ?_
  rw [shapeCast_self]
  exact congrArg (· * I.Wk (ix2 k q)) (mix_entry I ρ x0 x1 h0 h1 p I.μk k)

include h0 h1 in
/-- The value at (p, q): the value mix times the value weight. -/
theorem value_entry :
    k0_pay1 (F := Ideal) (k0_pay11 x0 x1 I.μv) I.Wv (ix2 p q) = Cert.TimeMix.value I (ρ p) q := by
  unfold k0_pay1
  refine (Cert.TimeMix.matmul_entry (n := 64) (a := 2048) (b := 2048) none _ _ p q).trans ?_
  show _ = ∑ k : Fin 2048, Cert.TimeMix.mix I.x I.a I.μv (ρ p) k * I.Wv (ix2 k q)
  refine Finset.sum_congr rfl fun k _ => ?_
  rw [shapeCast_self]
  exact congrArg (· * I.Wv (ix2 k q)) (valueMix_entry I ρ x0 x1 h0 h1 p k)

include h0 h1 in
/-- The receptance at (p, q): the receptance mix, narrowed, times the receptance weight. -/
theorem recept_entry :
    matmul (φ₂ := .bf16) dot_S64x2048_S2048x2048_S64x2048_1_0_0_1_n_n none
        (truncf .bf16 (k0_pay9 (F := Ideal) x0 x1 I.μr) bitsLt_bf16_f32)
        (shapeCast S2048x2048 (I.Wr : FVec Ideal S2048x2048 .bf16) shapeCasts_S2048x2048_S2048x2048)
        (constant S64x2048 .f32 0x00000000#32) (ix2 p q)
      = Cert.TimeMix.recept I (ρ p) q := by
  refine (Cert.TimeMix.matmul_entry (n := 64) (a := 2048) (b := 2048) none _ _ p q).trans ?_
  show _ = ∑ k : Fin 2048, Cert.TimeMix.mix I.x I.a I.μr (ρ p) k * I.Wr (ix2 k q)
  refine Finset.sum_congr rfl fun k _ => ?_
  rw [shapeCast_self]
  exact congrArg (· * I.Wr (ix2 k q)) (receptMix_entry I ρ x0 x1 h0 h1 p k)

/-! ### The pointwise part, over any key, value and receptance -/

section pointwise
variable (w u : Vec Ideal S1x2048 .f32) (K R : FVec Ideal S64x2048 .f32) (M : FVec Ideal S64x2048 .bf16)
  (W Wr : Vec Ideal S2048x2048 .bf16)

/-- The shifted exponent p + w at (p, q). -/
theorem shifted_at : k0_pay2 (F := Ideal) x3 w (ix2 p q) = x3 (ix2 p q) + w (ix2 0 q) := by
  show x3 (ix2 p q) + broadcastTo S64x2048 w broadcasts_S1x2048_S64x2048 (ix2 p q) = _
  rw [row_bcast]

/-- The next exponent max (p + w) k at (p, q). -/
theorem nextP_at :
    k0_pay3 (F := Ideal) x3 w K (ix2 p q) = Cert.TimeMix.nextP (x3 (ix2 p q)) (w (ix2 0 q)) (K (ix2 p q)) := by
  show max (k0_pay2 (F := Ideal) x3 w (ix2 p q)) (K (ix2 p q)) = _
  rw [shifted_at]
  rfl

/-- The state's weight e^(p + w − q') at (p, q). -/
theorem expOld_at :
    k0_pay4 (F := Ideal) x3 w K (ix2 p q)
      = Ideal.exp (x3 (ix2 p q) + w (ix2 0 q) - Cert.TimeMix.nextP (x3 (ix2 p q)) (w (ix2 0 q)) (K (ix2 p q))) := by
  show Ideal.exp (k0_pay2 (F := Ideal) x3 w (ix2 p q) - k0_pay3 (F := Ideal) x3 w K (ix2 p q)) = _
  rw [shifted_at, nextP_at]

/-- The token's weight e^(k − q') at (p, q). -/
theorem expNew_at :
    k0_pay5 (F := Ideal) x3 w K (ix2 p q)
      = Ideal.exp (K (ix2 p q) - Cert.TimeMix.nextP (x3 (ix2 p q)) (w (ix2 0 q)) (K (ix2 p q))) := by
  show Ideal.exp (K (ix2 p q) - k0_pay3 (F := Ideal) x3 w K (ix2 p q)) = _
  rw [nextP_at]

/-- The next numerator at (p, q), over any key and any value product. -/
theorem nextA_at :
    k0_pay6 (F := Ideal) x1 x3 w K M W (ix2 p q)
      = Cert.TimeMix.nextA (x1 (ix2 p q)) (x3 (ix2 p q)) (w (ix2 0 q)) (K (ix2 p q))
          (k0_pay1 (F := Ideal) M W (ix2 p q)) := by
  show k0_pay4 (F := Ideal) x3 w K (ix2 p q) * x1 (ix2 p q)
      + k0_pay5 (F := Ideal) x3 w K (ix2 p q) * k0_pay1 (F := Ideal) M W (ix2 p q) = _
  rw [expOld_at, expNew_at]
  rfl

/-- The next denominator at (p, q), over any key. -/
theorem nextB_at :
    k0_pay7 (F := Ideal) x2 x3 w K (ix2 p q)
      = Cert.TimeMix.nextB (x2 (ix2 p q)) (x3 (ix2 p q)) (w (ix2 0 q)) (K (ix2 p q)) := by
  show k0_pay4 (F := Ideal) x3 w K (ix2 p q) * x2 (ix2 p q) + k0_pay5 (F := Ideal) x3 w K (ix2 p q) = _
  rw [expOld_at, expNew_at]
  rfl

/-- The gated read-out at (p, q), over any key, value product and receptance mix: the logistic function of the
    receptance product times the weighted average. -/
theorem gated_at :
    k0_pay8 (F := Ideal) x1 x2 x3 u R K M W Wr (ix2 p q)
      = Ideal.logistic (matmul (φ₂ := .bf16) dot_S64x2048_S2048x2048_S64x2048_1_0_0_1_n_n none
            (truncf .bf16 R bitsLt_bf16_f32)
            (shapeCast S2048x2048 (Wr : FVec Ideal S2048x2048 .bf16) shapeCasts_S2048x2048_S2048x2048)
            (constant S64x2048 .f32 0x00000000#32) (ix2 p q))
        * Cert.TimeMix.wkv (x1 (ix2 p q)) (x2 (ix2 p q)) (x3 (ix2 p q)) (u (ix2 0 q)) (K (ix2 p q))
            (k0_pay1 (F := Ideal) M W (ix2 p q)) := by
  rw [← row_bcast u p q]
  rfl

end pointwise

/-! ### The four results of the first kernel -/

include h0 h1 h3 in
/-- The next exponent the body stores is the specification's, at (ρ p, q). -/
theorem newP_entry : k0_pay3 (F := Ideal) x3 I.w (k0_pay10 x0 x1 I.μk I.Wk) (ix2 p q) = Cert.TimeMix.newP I (ix2 (ρ p) q) := by
  refine (nextP_at x3 p q I.w _).trans ?_
  rw [key_entry I ρ x0 x1 h0 h1 p q, h3]
  rfl

include h0 h1 h3 in
/-- The next numerator the body stores is the specification's, at (ρ p, q). -/
theorem newA_entry : k0_pay6 (F := Ideal) x1 x3 I.w (k0_pay10 x0 x1 I.μk I.Wk) (k0_pay11 x0 x1 I.μv) I.Wv (ix2 p q)
    = Cert.TimeMix.newA I (ix2 (ρ p) q) := by
  refine (nextA_at x1 x3 p q I.w _ _ I.Wv).trans ?_
  rw [key_entry I ρ x0 x1 h0 h1 p q, value_entry I ρ x0 x1 h0 h1 p q, h1, h3]
  rfl

include h0 h1 h2 h3 in
/-- The next denominator the body stores is the specification's, at (ρ p, q). -/
theorem newB_entry : k0_pay7 (F := Ideal) x2 x3 I.w (k0_pay10 x0 x1 I.μk I.Wk) (ix2 p q) = Cert.TimeMix.newB I (ix2 (ρ p) q) := by
  refine (nextB_at x2 x3 p q I.w _).trans ?_
  rw [key_entry I ρ x0 x1 h0 h1 p q, h2, h3]
  rfl

include h0 h1 h2 h3 in
/-- The gated read-out the body stores is the specification's, at (ρ p, q). -/
theorem gated_entry : k0_pay8 (F := Ideal) x1 x2 x3 I.u (k0_pay9 x0 x1 I.μr) (k0_pay10 x0 x1 I.μk I.Wk) (k0_pay11 x0 x1 I.μv) I.Wv I.Wr (ix2 p q)
    = Cert.TimeMix.gatedArr I (ix2 (ρ p) q) := by
  refine (gated_at x1 x2 x3 p q I.u _ _ _ I.Wv I.Wr).trans ?_
  rw [recept_entry I ρ x0 x1 h0 h1 p q, key_entry I ρ x0 x1 h0 h1 p q, value_entry I ρ x0 x1 h0 h1 p q, h1, h2, h3]
  rfl
end first

/-! ### The second kernel -/

/-- The product of a block of the gated read-out with the output weight is the output, at (ρ p, q). -/
theorem out_entry (I : Cert.TimeMix.Inputs) (ρ : Fin 512 → Fin 16384) (y0 : Vec Ideal S512x2048 .bf16)
    (hy : ∀ (p : Fin 512) (q : Fin 2048), y0 (ix2 p q) = Cert.TimeMix.gatedArr I (ix2 (ρ p) q)) (p : Fin 512) (q : Fin 2048) :
    k1_pay1 (F := Ideal) y0 I.Wo (ix2 p q) = Cert.TimeMix.out I (ix2 (ρ p) q) := by
  unfold k1_pay1
  refine (Cert.TimeMix.matmul_entry (n := 512) (a := 2048) (b := 2048) none _ _ p q).trans ?_
  show _ = ∑ k : Fin 2048, Cert.TimeMix.gated I (ρ p) k * I.Wo (ix2 k q)
  refine Finset.sum_congr rfl fun k _ => ?_
  rw [shapeCast_self, shapeCast_self]
  exact congrArg (· * I.Wo (ix2 k q)) (hy p k)
end Cert.KernelIdeal.Payload
end
-- ==== Proof.Blocks0.lean ====
/-
  The first kernel's four result arrays, whole.

  The kernel runs over 256 grid points. At point t it is handed rows 64·t … 64·t + 63 of the token x and of the state
  arrays a, b, p, together with the five coefficient rows and the three narrowed weights whole, and it writes back rows
  64·t … 64·t + 63 of each of its four results. Entry (p, q) of a block therefore sits at entry (64·t + p, q) of its
  array, the blocks of a result are disjoint, and together they cover it: every row r lies in the block of point r / 64.

  For each result, what point t writes back is block t of ONE whole-array function of the arguments as the kernel finds
  them — the body's arithmetic at a block entry is the specification at the array entry —, so after the last point the
  array holds that function: the next numerator, the next denominator, the next exponent, and the gated read-out that
  the second kernel consumes.
-/
import proofs.«145627_j52621939310636_2_alg».proof.Proof.Gen.KernelIdeal.Frame
import proofs.«145627_j52621939310636_2_alg».proof.Proof.Spec
import proofs.«145627_j52621939310636_2_alg».proof.Proof.Payload
import Idealize.ShloMosaic.Lib.Pipeline.Value

set_option maxRecDepth 16384

noncomputable section

namespace Cert.KernelIdeal.Blocks0

open Cert.KernelIdeal Cert.KernelIdeal.Gen Idealize.ShloMosaic Idealize.ShloMosaic.TcCoe Idealize.SL.Sem
open Idealize.ShloMosaic.ValueIdx
open Idealize.ShloMosaic.Pipeline (Dat)

/-- A block's corner offset written as a literal pair is the zero offset. -/
theorem hz : (![0, 0] : Fin 2 → Nat) = fun _ => 0 := funext fun a => by fin_cases a <;> rfl

/-- The first kernel's index maps, decided over its 256 grid points: the four token and state inputs and the four
    outputs are cut into 64-row blocks, point t taking block t; the five rows and the three weights are taken whole. -/
theorem idx_row : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_12.index t (0 : Fin 2) = t.val ∧ win0_12.index t (1 : Fin 2) = 0)
    ∧ (win0_13.index t (0 : Fin 2) = t.val ∧ win0_13.index t (1 : Fin 2) = 0)
    ∧ (win0_14.index t (0 : Fin 2) = t.val ∧ win0_14.index t (1 : Fin 2) = 0)
    ∧ (win0_15.index t (0 : Fin 2) = t.val ∧ win0_15.index t (1 : Fin 2) = 0) :=
  (by decide +kernel : ∀ t : Fin grid0.N, _)

theorem idx_whole : ∀ t : Fin cfg0.N,
    (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0) :=
  (by decide +kernel : ∀ t : Fin grid0.N, _)

variable (V : (c : Dev nD) → (b : Ref sig .tc) → Buf (Elt Ideal) ((c : Thread nD τ).loc b)) (c : Dev nD)

/-- The array row that row p of the block at point t sits at: 64·t + p. -/
def row (t : Fin cfg0.N) (p : Fin 64) : Fin 16384 := ⟨t.val * 64 + p.val, by
  have ht : t.val < 256 := t.isLt
  have hp := p.isLt
  omega⟩

/-- The thirteen arguments as the first kernel finds them: the four big arrays and the five rows as they are, the key,
    value and receptance weights in their narrowed copies; the output weight, which this kernel does not read, is a
    parameter. -/
def inputsAt (Wo : (⟨2, ![2048, 2048]⟩ : Shape).Idx → EReal) : Cert.TimeMix.Inputs :=
  ⟨V c main_arg0, V c main_arg1, V c main_arg2, V c main_arg3, V c main_arg4, V c main_arg5, V c main_arg6,
    V c main_arg7, V c main_arg8, V c main_v0, V c main_v1, V c main_v2, Wo⟩

/-! ### What each input window's block reads -/

theorem read0 (t : Fin cfg0.N) (p : Fin 64) (q : Fin 2048) :
    iblk0 V c 0 t (ix2 p q) = V c main_arg0 (ix2 (row t p) q) := by
  show V c main_arg0 (((cfg0.win 0).blk t).view.emb (ix2 p q)) = V c main_arg0 (ix2 (row t p) q)
  refine congrArg (V c main_arg0) (funext fun a => Fin.ext ?_)
  obtain ⟨⟨e0, e1⟩, -⟩ := idx_row t
  match a with
  | ⟨0, _⟩ => show win0_0.index t (0 : Fin 2) * 64 + 1 * p.val = t.val * 64 + p.val; omega
  | ⟨1, _⟩ => show win0_0.index t (1 : Fin 2) * 2048 + 1 * q.val = q.val; omega

theorem read1 (t : Fin cfg0.N) (p : Fin 64) (q : Fin 2048) :
    iblk0 V c 1 t (ix2 p q) = V c main_arg1 (ix2 (row t p) q) := by
  show V c main_arg1 (((cfg0.win 1).blk t).view.emb (ix2 p q)) = V c main_arg1 (ix2 (row t p) q)
  refine congrArg (V c main_arg1) (funext fun a => Fin.ext ?_)
  obtain ⟨-, ⟨e0, e1⟩, -⟩ := idx_row t
  match a with
  | ⟨0, _⟩ => show win0_1.index t (0 : Fin 2) * 64 + 1 * p.val = t.val * 64 + p.val; omega
  | ⟨1, _⟩ => show win0_1.index t (1 : Fin 2) * 2048 + 1 * q.val = q.val; omega

theorem read2 (t : Fin cfg0.N) (p : Fin 64) (q : Fin 2048) :
    iblk0 V c 2 t (ix2 p q) = V c main_arg2 (ix2 (row t p) q) := by
  show V c main_arg2 (((cfg0.win 2).blk t).view.emb (ix2 p q)) = V c main_arg2 (ix2 (row t p) q)
  refine congrArg (V c main_arg2) (funext fun a => Fin.ext ?_)
  obtain ⟨-, -, ⟨e0, e1⟩, -⟩ := idx_row t
  match a with
  | ⟨0, _⟩ => show win0_2.index t (0 : Fin 2) * 64 + 1 * p.val = t.val * 64 + p.val; omega
  | ⟨1, _⟩ => show win0_2.index t (1 : Fin 2) * 2048 + 1 * q.val = q.val; omega

theorem read3 (t : Fin cfg0.N) (p : Fin 64) (q : Fin 2048) :
    iblk0 V c 3 t (ix2 p q) = V c main_arg3 (ix2 (row t p) q) := by
  show V c main_arg3 (((cfg0.win 3).blk t).view.emb (ix2 p q)) = V c main_arg3 (ix2 (row t p) q)
  refine congrArg (V c main_arg3) (funext fun a => Fin.ext ?_)
  obtain ⟨-, -, -, ⟨e0, e1⟩, -⟩ := idx_row t
  match a with
  | ⟨0, _⟩ => show win0_3.index t (0 : Fin 2) * 64 + 1 * p.val = t.val * 64 + p.val; omega
  | ⟨1, _⟩ => show win0_3.index t (1 : Fin 2) * 2048 + 1 * q.val = q.val; omega

theorem whole4 (t : Fin cfg0.N) : iblk0 V c 4 t = V c main_arg4 := by
  funext y
  show V c main_arg4 (((cfg0.win 4).blk t).view.emb y) = V c main_arg4 y
  refine congrArg (V c main_arg4) (funext fun a => Fin.ext ?_)
  obtain ⟨⟨e0, e1⟩, -⟩ := idx_whole t
  match a with
  | ⟨0, _⟩ => show win0_4.index t (0 : Fin 2) * 1 + 1 * (y 0).val = (y 0).val; omega
  | ⟨1, _⟩ => show win0_4.index t (1 : Fin 2) * 2048 + 1 * (y 1).val = (y 1).val; omega

theorem whole5 (t : Fin cfg0.N) : iblk0 V c 5 t = V c main_arg5 := by
  funext y
  show V c main_arg5 (((cfg0.win 5).blk t).view.emb y) = V c main_arg5 y
  refine congrArg (V c main_arg5) (funext fun a => Fin.ext ?_)
  obtain ⟨-, ⟨e0, e1⟩, -⟩ := idx_whole t
  match a with
  | ⟨0, _⟩ => show win0_5.index t (0 : Fin 2) * 1 + 1 * (y 0).val = (y 0).val; omega
  | ⟨1, _⟩ => show win0_5.index t (1 : Fin 2) * 2048 + 1 * (y 1).val = (y 1).val; omega

theorem whole6 (t : Fin cfg0.N) : iblk0 V c 6 t = V c main_arg6 := by
  funext y
  show V c main_arg6 (((cfg0.win 6).blk t).view.emb y) = V c main_arg6 y
  refine congrArg (V c main_arg6) (funext fun a => Fin.ext ?_)
  obtain ⟨-, -, ⟨e0, e1⟩, -⟩ := idx_whole t
  match a with
  | ⟨0, _⟩ => show win0_6.index t (0 : Fin 2) * 1 + 1 * (y 0).val = (y 0).val; omega
  | ⟨1, _⟩ => show win0_6.index t (1 : Fin 2) * 2048 + 1 * (y 1).val = (y 1).val; omega

theorem whole7 (t : Fin cfg0.N) : iblk0 V c 7 t = V c main_arg7 := by
  funext y
  show V c main_arg7 (((cfg0.win 7).blk t).view.emb y) = V c main_arg7 y
  refine congrArg (V c main_arg7) (funext fun a => Fin.ext ?_)
  obtain ⟨-, -, -, ⟨e0, e1⟩, -⟩ := idx_whole t
  match a with
  | ⟨0, _⟩ => show win0_7.index t (0 : Fin 2) * 1 + 1 * (y 0).val = (y 0).val; omega
  | ⟨1, _⟩ => show win0_7.index t (1 : Fin 2) * 2048 + 1 * (y 1).val = (y 1).val; omega

theorem whole8 (t : Fin cfg0.N) : iblk0 V c 8 t = V c main_arg8 := by
  funext y
  show V c main_arg8 (((cfg0.win 8).blk t).view.emb y) = V c main_arg8 y
  refine congrArg (V c main_arg8) (funext fun a => Fin.ext ?_)
  obtain ⟨-, -, -, -, ⟨e0, e1⟩, -⟩ := idx_whole t
  match a with
  | ⟨0, _⟩ => show win0_8.index t (0 : Fin 2) * 1 + 1 * (y 0).val = (y 0).val; omega
  | ⟨1, _⟩ => show win0_8.index t (1 : Fin 2) * 2048 + 1 * (y 1).val = (y 1).val; omega

theorem whole9 (t : Fin cfg0.N) : iblk0 V c 9 t = V c main_v0 := by
  funext y
  show V c main_v0 (((cfg0.win 9).blk t).view.emb y) = V c main_v0 y
  refine congrArg (V c main_v0) (funext fun a => Fin.ext ?_)
  obtain ⟨-, -, -, -, -, ⟨e0, e1⟩, -⟩ := idx_whole t
  match a with
  | ⟨0, _⟩ => show win0_9.index t (0 : Fin 2) * 2048 + 1 * (y 0).val = (y 0).val; omega
  | ⟨1, _⟩ => show win0_9.index t (1 : Fin 2) * 2048 + 1 * (y 1).val = (y 1).val; omega

theorem whole10 (t : Fin cfg0.N) : iblk0 V c 10 t = V c main_v1 := by
  funext y
  show V c main_v1 (((cfg0.win 10).blk t).view.emb y) = V c main_v1 y
  refine congrArg (V c main_v1) (funext fun a => Fin.ext ?_)
  obtain ⟨-, -, -, -, -, -, ⟨e0, e1⟩, -⟩ := idx_whole t
  match a with
  | ⟨0, _⟩ => show win0_10.index t (0 : Fin 2) * 2048 + 1 * (y 0).val = (y 0).val; omega
  | ⟨1, _⟩ => show win0_10.index t (1 : Fin 2) * 2048 + 1 * (y 1).val = (y 1).val; omega

theorem whole11 (t : Fin cfg0.N) : iblk0 V c 11 t = V c main_v2 := by
  funext y
  show V c main_v2 (((cfg0.win 11).blk t).view.emb y) = V c main_v2 y
  refine congrArg (V c main_v2) (funext fun a => Fin.ext ?_)
  obtain ⟨-, -, -, -, -, -, -, e0, e1⟩ := idx_whole t
  match a with
  | ⟨0, _⟩ => show win0_11.index t (0 : Fin 2) * 2048 + 1 * (y 0).val = (y 0).val; omega
  | ⟨1, _⟩ => show win0_11.index t (1 : Fin 2) * 2048 + 1 * (y 1).val = (y 1).val; omega

/-! ### The next numerator: output window 12 -/

/-- Entry (p, q) of the block at point t sits in the array at (64·t + p, q). -/
theorem emb12 (t : Fin cfg0.N) (p : Fin 64) (q : Fin 2048) :
    ((cfg0.win 12).blk t).view.emb (ix2 p q) = ix2 (row t p) q := by
  refine funext fun a => Fin.ext ?_
  obtain ⟨-, -, -, -, ⟨e0, e1⟩, -⟩ := idx_row t
  match a with
  | ⟨0, _⟩ => show win0_12.index t (0 : Fin 2) * 64 + 1 * p.val = t.val * 64 + p.val; omega
  | ⟨1, _⟩ => show win0_12.index t (1 : Fin 2) * 2048 + 1 * q.val = q.val; omega

/-- What point t writes back is block t of the next numerator. -/
theorem flushed12 (Wo : (⟨2, ![2048, 2048]⟩ : Shape).Idx → EReal) (t : Fin cfg0.N) :
    (dat0 V c).flushed 12 t = ((cfg0.win 12).blk t).view.read (Elt Ideal) (Cert.TimeMix.newA (inputsAt V c Wo)) := by
  show (cfg0.win 12).cut (grid0.coords t) ((dat0 V c).after 12 t) = _
  rw [after0_12]
  unfold out0_12
  rw [View.canon_unit_zero hz]
  simp only [View.ld_unit_zero (S := S64x2048) hz, View.ld_unit_zero (S := S1x2048) hz, View.ld_unit_zero (S := S2048x2048) hz]
  rw [whole4 V c t, whole5 V c t, whole8 V c t, whole9 V c t, whole10 V c t]
  funext j
  obtain ⟨p, q, rfl⟩ : ∃ (p : Fin 64) (q : Fin 2048), j = (ix2 p q : S64x2048.Idx) := ⟨j 0, j 1, eq_ix2 (n0 := 64) (n1 := 2048) j⟩
  show k0_pay6 (iblk0 V c 1 t) (iblk0 V c 3 t) (V c main_arg8)
        (k0_pay10 (iblk0 V c 0 t) (iblk0 V c 1 t) (V c main_arg4) (V c main_v0))
        (k0_pay11 (iblk0 V c 0 t) (iblk0 V c 1 t) (V c main_arg5)) (V c main_v1) (ix2 p q)
      = Cert.TimeMix.newA (inputsAt V c Wo) (((cfg0.win 12).blk t).view.emb (ix2 p q))
  rw [emb12 t p q]
  exact Cert.KernelIdeal.Payload.newA_entry (inputsAt V c Wo) (row t) (iblk0 V c 0 t) (iblk0 V c 1 t) (iblk0 V c 3 t)
    (read0 V c t) (read1 V c t) (read3 V c t) p q

/-- An index of the array is in point t's block iff each coordinate is in the block's range on its axis. -/
theorem mem_blk12 (t : Fin cfg0.N) (i : S16384x2048.Idx) :
    i ∈ ((cfg0.win 12).blk t).view.set ↔ ∀ a : Fin 2, win0_12.index t a * S64x2048.size a ≤ (i a).val
      ∧ (i a).val < win0_12.index t a * S64x2048.size a + S64x2048.size a := by
  show i ∈ ((View.whole main_v4_0).slice (win0_12.rect t)).set ↔ _
  rw [View.set_slice_whole, Rect.mem_set_unit]
  exact Iff.rfl

/-- Every index of the array is in the block of the point its row falls to. -/
theorem cover12 (i : S16384x2048.Idx) :
    ∃ t : Fin cfg0.N, (cfg0.win 12).flush t = true ∧ i ∈ ((cfg0.win 12).blk t).view.set := by
  have hi0 : (i 0).val < 16384 := (i 0).isLt
  have hi1 : (i 1).val < 2048 := (i 1).isLt
  have hN : cfg0.N = 256 := N_0
  have ht : (i 0).val / 64 < cfg0.N := by rw [hN]; omega
  refine ⟨⟨(i 0).val / 64, ht⟩, flush0_12 _, ?_⟩
  rw [mem_blk12]
  obtain ⟨-, -, -, -, ⟨e0, e1⟩, -⟩ := idx_row ⟨(i 0).val / 64, ht⟩
  intro a
  match a with
  | ⟨0, _⟩ =>
    show win0_12.index ⟨(i 0).val / 64, ht⟩ (0 : Fin 2) * 64 ≤ (i 0).val
      ∧ (i 0).val < win0_12.index ⟨(i 0).val / 64, ht⟩ (0 : Fin 2) * 64 + 64
    rw [e0]; show (i 0).val / 64 * 64 ≤ (i 0).val ∧ (i 0).val < (i 0).val / 64 * 64 + 64; omega
  | ⟨1, _⟩ =>
    show win0_12.index ⟨(i 0).val / 64, ht⟩ (1 : Fin 2) * 2048 ≤ (i 1).val
      ∧ (i 1).val < win0_12.index ⟨(i 0).val / 64, ht⟩ (1 : Fin 2) * 2048 + 2048
    rw [e1]; omega

/-- After the first kernel, its first result array is the next numerator of the arguments as the kernel found them. -/
theorem final12 (Wo : (⟨2, ![2048, 2048]⟩ : Shape).Idx → EReal) :
    (dat0 V c).arrAt 12 cfg0.N = Cert.TimeMix.newA (inputsAt V c Wo) :=
  (dat0 V c).arrAt_eq_of_cover 12 (Cert.TimeMix.newA (inputsAt V c Wo)) (fun t _ => flushed12 V c Wo t) cover12

/-! ### The next denominator: output window 13 -/

theorem emb13 (t : Fin cfg0.N) (p : Fin 64) (q : Fin 2048) :
    ((cfg0.win 13).blk t).view.emb (ix2 p q) = ix2 (row t p) q := by
  refine funext fun a => Fin.ext ?_
  obtain ⟨-, -, -, -, -, ⟨e0, e1⟩, -⟩ := idx_row t
  match a with
  | ⟨0, _⟩ => show win0_13.index t (0 : Fin 2) * 64 + 1 * p.val = t.val * 64 + p.val; omega
  | ⟨1, _⟩ => show win0_13.index t (1 : Fin 2) * 2048 + 1 * q.val = q.val; omega

/-- What point t writes back is block t of the next denominator. -/
theorem flushed13 (Wo : (⟨2, ![2048, 2048]⟩ : Shape).Idx → EReal) (t : Fin cfg0.N) :
    (dat0 V c).flushed 13 t = ((cfg0.win 13).blk t).view.read (Elt Ideal) (Cert.TimeMix.newB (inputsAt V c Wo)) := by
  show (cfg0.win 13).cut (grid0.coords t) ((dat0 V c).after 13 t) = _
  rw [after0_13]
  unfold out0_13
  rw [View.canon_unit_zero hz]
  simp only [View.ld_unit_zero (S := S64x2048) hz, View.ld_unit_zero (S := S1x2048) hz, View.ld_unit_zero (S := S2048x2048) hz]
  rw [whole4 V c t, whole8 V c t, whole9 V c t]
  funext j
  obtain ⟨p, q, rfl⟩ : ∃ (p : Fin 64) (q : Fin 2048), j = (ix2 p q : S64x2048.Idx) := ⟨j 0, j 1, eq_ix2 (n0 := 64) (n1 := 2048) j⟩
  show k0_pay7 (iblk0 V c 2 t) (iblk0 V c 3 t) (V c main_arg8)
        (k0_pay10 (iblk0 V c 0 t) (iblk0 V c 1 t) (V c main_arg4) (V c main_v0)) (ix2 p q)
      = Cert.TimeMix.newB (inputsAt V c Wo) (((cfg0.win 13).blk t).view.emb (ix2 p q))
  rw [emb13 t p q]
  exact Cert.KernelIdeal.Payload.newB_entry (inputsAt V c Wo) (row t) (iblk0 V c 0 t) (iblk0 V c 1 t) (iblk0 V c 2 t)
    (iblk0 V c 3 t) (read0 V c t) (read1 V c t) (read2 V c t) (read3 V c t) p q

theorem mem_blk13 (t : Fin cfg0.N) (i : S16384x2048.Idx) :
    i ∈ ((cfg0.win 13).blk t).view.set ↔ ∀ a : Fin 2, win0_13.index t a * S64x2048.size a ≤ (i a).val
      ∧ (i a).val < win0_13.index t a * S64x2048.size a + S64x2048.size a := by
  show i ∈ ((View.whole main_v4_1).slice (win0_13.rect t)).set ↔ _
  rw [View.set_slice_whole, Rect.mem_set_unit]
  exact Iff.rfl

theorem cover13 (i : S16384x2048.Idx) :
    ∃ t : Fin cfg0.N, (cfg0.win 13).flush t = true ∧ i ∈ ((cfg0.win 13).blk t).view.set := by
  have hi0 : (i 0).val < 16384 := (i 0).isLt
  have hi1 : (i 1).val < 2048 := (i 1).isLt
  have hN : cfg0.N = 256 := N_0
  have ht : (i 0).val / 64 < cfg0.N := by rw [hN]; omega
  refine ⟨⟨(i 0).val / 64, ht⟩, flush0_13 _, ?_⟩
  rw [mem_blk13]
  obtain ⟨-, -, -, -, -, ⟨e0, e1⟩, -⟩ := idx_row ⟨(i 0).val / 64, ht⟩
  intro a
  match a with
  | ⟨0, _⟩ =>
    show win0_13.index ⟨(i 0).val / 64, ht⟩ (0 : Fin 2) * 64 ≤ (i 0).val
      ∧ (i 0).val < win0_13.index ⟨(i 0).val / 64, ht⟩ (0 : Fin 2) * 64 + 64
    rw [e0]; show (i 0).val / 64 * 64 ≤ (i 0).val ∧ (i 0).val < (i 0).val / 64 * 64 + 64; omega
  | ⟨1, _⟩ =>
    show win0_13.index ⟨(i 0).val / 64, ht⟩ (1 : Fin 2) * 2048 ≤ (i 1).val
      ∧ (i 1).val < win0_13.index ⟨(i 0).val / 64, ht⟩ (1 : Fin 2) * 2048 + 2048
    rw [e1]; omega

/-- After the first kernel, its second result array is the next denominator. -/
theorem final13 (Wo : (⟨2, ![2048, 2048]⟩ : Shape).Idx → EReal) :
    (dat0 V c).arrAt 13 cfg0.N = Cert.TimeMix.newB (inputsAt V c Wo) :=
  (dat0 V c).arrAt_eq_of_cover 13 (Cert.TimeMix.newB (inputsAt V c Wo)) (fun t _ => flushed13 V c Wo t) cover13

/-! ### The next exponent: output window 14 -/

theorem emb14 (t : Fin cfg0.N) (p : Fin 64) (q : Fin 2048) :
    ((cfg0.win 14).blk t).view.emb (ix2 p q) = ix2 (row t p) q := by
  refine funext fun a => Fin.ext ?_
  obtain ⟨-, -, -, -, -, -, ⟨e0, e1⟩, -⟩ := idx_row t
  match a with
  | ⟨0, _⟩ => show win0_14.index t (0 : Fin 2) * 64 + 1 * p.val = t.val * 64 + p.val; omega
  | ⟨1, _⟩ => show win0_14.index t (1 : Fin 2) * 2048 + 1 * q.val = q.val; omega

/-- What point t writes back is block t of the next exponent. -/
theorem flushed14 (Wo : (⟨2, ![2048, 2048]⟩ : Shape).Idx → EReal) (t : Fin cfg0.N) :
    (dat0 V c).flushed 14 t = ((cfg0.win 14).blk t).view.read (Elt Ideal) (Cert.TimeMix.newP (inputsAt V c Wo)) := by
  show (cfg0.win 14).cut (grid0.coords t) ((dat0 V c).after 14 t) = _
  rw [after0_14]
  unfold out0_14
  rw [View.canon_unit_zero hz]
  simp only [View.ld_unit_zero (S := S64x2048) hz, View.ld_unit_zero (S := S1x2048) hz, View.ld_unit_zero (S := S2048x2048) hz]
  rw [whole4 V c t, whole8 V c t, whole9 V c t]
  funext j
  obtain ⟨p, q, rfl⟩ : ∃ (p : Fin 64) (q : Fin 2048), j = (ix2 p q : S64x2048.Idx) := ⟨j 0, j 1, eq_ix2 (n0 := 64) (n1 := 2048) j⟩
  show k0_pay3 (iblk0 V c 3 t) (V c main_arg8)
        (k0_pay10 (iblk0 V c 0 t) (iblk0 V c 1 t) (V c main_arg4) (V c main_v0)) (ix2 p q)
      = Cert.TimeMix.newP (inputsAt V c Wo) (((cfg0.win 14).blk t).view.emb (ix2 p q))
  rw [emb14 t p q]
  exact Cert.KernelIdeal.Payload.newP_entry (inputsAt V c Wo) (row t) (iblk0 V c 0 t) (iblk0 V c 1 t) (iblk0 V c 3 t)
    (read0 V c t) (read1 V c t) (read3 V c t) p q

theorem mem_blk14 (t : Fin cfg0.N) (i : S16384x2048.Idx) :
    i ∈ ((cfg0.win 14).blk t).view.set ↔ ∀ a : Fin 2, win0_14.index t a * S64x2048.size a ≤ (i a).val
      ∧ (i a).val < win0_14.index t a * S64x2048.size a + S64x2048.size a := by
  show i ∈ ((View.whole main_v4_2).slice (win0_14.rect t)).set ↔ _
  rw [View.set_slice_whole, Rect.mem_set_unit]
  exact Iff.rfl

theorem cover14 (i : S16384x2048.Idx) :
    ∃ t : Fin cfg0.N, (cfg0.win 14).flush t = true ∧ i ∈ ((cfg0.win 14).blk t).view.set := by
  have hi0 : (i 0).val < 16384 := (i 0).isLt
  have hi1 : (i 1).val < 2048 := (i 1).isLt
  have hN : cfg0.N = 256 := N_0
  have ht : (i 0).val / 64 < cfg0.N := by rw [hN]; omega
  refine ⟨⟨(i 0).val / 64, ht⟩, flush0_14 _, ?_⟩
  rw [mem_blk14]
  obtain ⟨-, -, -, -, -, -, ⟨e0, e1⟩, -⟩ := idx_row ⟨(i 0).val / 64, ht⟩
  intro a
  match a with
  | ⟨0, _⟩ =>
    show win0_14.index ⟨(i 0).val / 64, ht⟩ (0 : Fin 2) * 64 ≤ (i 0).val
      ∧ (i 0).val < win0_14.index ⟨(i 0).val / 64, ht⟩ (0 : Fin 2) * 64 + 64
    rw [e0]; show (i 0).val / 64 * 64 ≤ (i 0).val ∧ (i 0).val < (i 0).val / 64 * 64 + 64; omega
  | ⟨1, _⟩ =>
    show win0_14.index ⟨(i 0).val / 64, ht⟩ (1 : Fin 2) * 2048 ≤ (i 1).val
      ∧ (i 1).val < win0_14.index ⟨(i 0).val / 64, ht⟩ (1 : Fin 2) * 2048 + 2048
    rw [e1]; omega

/-- After the first kernel, its third result array is the next exponent. -/
theorem final14 (Wo : (⟨2, ![2048, 2048]⟩ : Shape).Idx → EReal) :
    (dat0 V c).arrAt 14 cfg0.N = Cert.TimeMix.newP (inputsAt V c Wo) :=
  (dat0 V c).arrAt_eq_of_cover 14 (Cert.TimeMix.newP (inputsAt V c Wo)) (fun t _ => flushed14 V c Wo t) cover14

/-! ### The gated read-out handed to the second kernel: output window 15 -/

theorem emb15 (t : Fin cfg0.N) (p : Fin 64) (q : Fin 2048) :
    ((cfg0.win 15).blk t).view.emb (ix2 p q) = ix2 (row t p) q := by
  refine funext fun a => Fin.ext ?_
  obtain ⟨-, -, -, -, -, -, -, e0, e1⟩ := idx_row t
  match a with
  | ⟨0, _⟩ => show win0_15.index t (0 : Fin 2) * 64 + 1 * p.val = t.val * 64 + p.val; omega
  | ⟨1, _⟩ => show win0_15.index t (1 : Fin 2) * 2048 + 1 * q.val = q.val; omega

/-- What point t writes back is block t of the gated read-out. -/
theorem flushed15 (Wo : (⟨2, ![2048, 2048]⟩ : Shape).Idx → EReal) (t : Fin cfg0.N) :
    (dat0 V c).flushed 15 t = ((cfg0.win 15).blk t).view.read (Elt Ideal) (Cert.TimeMix.gatedArr (inputsAt V c Wo)) := by
  show (cfg0.win 15).cut (grid0.coords t) ((dat0 V c).after 15 t) = _
  rw [after0_15]
  unfold out0_15
  rw [View.canon_unit_zero hz]
  simp only [View.ld_unit_zero (S := S64x2048) hz, View.ld_unit_zero (S := S1x2048) hz, View.ld_unit_zero (S := S2048x2048) hz]
  rw [whole4 V c t, whole5 V c t, whole6 V c t, whole7 V c t, whole9 V c t, whole10 V c t, whole11 V c t]
  funext j
  obtain ⟨p, q, rfl⟩ : ∃ (p : Fin 64) (q : Fin 2048), j = (ix2 p q : S64x2048.Idx) := ⟨j 0, j 1, eq_ix2 (n0 := 64) (n1 := 2048) j⟩
  show k0_pay8 (iblk0 V c 1 t) (iblk0 V c 2 t) (iblk0 V c 3 t) (V c main_arg7)
        (k0_pay9 (iblk0 V c 0 t) (iblk0 V c 1 t) (V c main_arg6))
        (k0_pay10 (iblk0 V c 0 t) (iblk0 V c 1 t) (V c main_arg4) (V c main_v0))
        (k0_pay11 (iblk0 V c 0 t) (iblk0 V c 1 t) (V c main_arg5)) (V c main_v1) (V c main_v2) (ix2 p q)
      = Cert.TimeMix.gatedArr (inputsAt V c Wo) (((cfg0.win 15).blk t).view.emb (ix2 p q))
  rw [emb15 t p q]
  exact Cert.KernelIdeal.Payload.gated_entry (inputsAt V c Wo) (row t) (iblk0 V c 0 t) (iblk0 V c 1 t) (iblk0 V c 2 t)
    (iblk0 V c 3 t) (read0 V c t) (read1 V c t) (read2 V c t) (read3 V c t) p q

theorem mem_blk15 (t : Fin cfg0.N) (i : S16384x2048.Idx) :
    i ∈ ((cfg0.win 15).blk t).view.set ↔ ∀ a : Fin 2, win0_15.index t a * S64x2048.size a ≤ (i a).val
      ∧ (i a).val < win0_15.index t a * S64x2048.size a + S64x2048.size a := by
  show i ∈ ((View.whole main_v4_3).slice (win0_15.rect t)).set ↔ _
  rw [View.set_slice_whole, Rect.mem_set_unit]
  exact Iff.rfl

theorem cover15 (i : S16384x2048.Idx) :
    ∃ t : Fin cfg0.N, (cfg0.win 15).flush t = true ∧ i ∈ ((cfg0.win 15).blk t).view.set := by
  have hi0 : (i 0).val < 16384 := (i 0).isLt
  have hi1 : (i 1).val < 2048 := (i 1).isLt
  have hN : cfg0.N = 256 := N_0
  have ht : (i 0).val / 64 < cfg0.N := by rw [hN]; omega
  refine ⟨⟨(i 0).val / 64, ht⟩, flush0_15 _, ?_⟩
  rw [mem_blk15]
  obtain ⟨-, -, -, -, -, -, -, e0, e1⟩ := idx_row ⟨(i 0).val / 64, ht⟩
  intro a
  match a with
  | ⟨0, _⟩ =>
    show win0_15.index ⟨(i 0).val / 64, ht⟩ (0 : Fin 2) * 64 ≤ (i 0).val
      ∧ (i 0).val < win0_15.index ⟨(i 0).val / 64, ht⟩ (0 : Fin 2) * 64 + 64
    rw [e0]; show (i 0).val / 64 * 64 ≤ (i 0).val ∧ (i 0).val < (i 0).val / 64 * 64 + 64; omega
  | ⟨1, _⟩ =>
    show win0_15.index ⟨(i 0).val / 64, ht⟩ (1 : Fin 2) * 2048 ≤ (i 1).val
      ∧ (i 1).val < win0_15.index ⟨(i 0).val / 64, ht⟩ (1 : Fin 2) * 2048 + 2048
    rw [e1]; omega

/-- After the first kernel, its fourth result array is the gated read-out. -/
theorem final15 (Wo : (⟨2, ![2048, 2048]⟩ : Shape).Idx → EReal) :
    (dat0 V c).arrAt 15 cfg0.N = Cert.TimeMix.gatedArr (inputsAt V c Wo) :=
  (dat0 V c).arrAt_eq_of_cover 15 (Cert.TimeMix.gatedArr (inputsAt V c Wo)) (fun t _ => flushed15 V c Wo t) cover15

end Cert.KernelIdeal.Blocks0
end
-- ==== Proof.Blocks1.lean ====
/-
  The second kernel's result array, whole.

  The kernel runs over 32 grid points. At point t it is handed rows 512·t … 512·t + 511 of its first operand and its
  second operand whole, multiplies them, and writes back rows 512·t … 512·t + 511 of its result. When the first
  operand holds the gated read-out and the second the output weight, what point t writes back is block t of the
  output — a matrix product read at an entry is the sum over the shared axis —, the blocks cover the array (row r lies
  in the block of point r / 512), and so after the last point the array holds the output.
-/
import proofs.«145627_j52621939310636_2_alg».proof.Proof.Gen.KernelIdeal.Frame
import proofs.«145627_j52621939310636_2_alg».proof.Proof.Spec
import proofs.«145627_j52621939310636_2_alg».proof.Proof.Payload
import Idealize.ShloMosaic.Lib.Pipeline.Value

set_option maxRecDepth 16384

noncomputable section

namespace Cert.KernelIdeal.Blocks1

open Cert.KernelIdeal Cert.KernelIdeal.Gen Idealize.ShloMosaic Idealize.ShloMosaic.TcCoe Idealize.SL.Sem
open Idealize.ShloMosaic.ValueIdx
open Idealize.ShloMosaic.Pipeline (Dat)

/-- A block's corner offset written as a literal pair is the zero offset. -/
theorem hz : (![0, 0] : Fin 2 → Nat) = fun _ => 0 := funext fun a => by fin_cases a <;> rfl

/-- The second kernel's index maps, decided over its 32 grid points: the gated read-out and the output are cut into
    512-row blocks, point t taking block t; the output weight is taken whole. -/
theorem idx : ∀ t : Fin cfg1.N,
    (win1_0.index t (0 : Fin 2) = t.val ∧ win1_0.index t (1 : Fin 2) = 0)
    ∧ (win1_1.index t (0 : Fin 2) = 0 ∧ win1_1.index t (1 : Fin 2) = 0)
    ∧ (win1_2.index t (0 : Fin 2) = t.val ∧ win1_2.index t (1 : Fin 2) = 0) :=
  (by decide +kernel : ∀ t : Fin grid1.N, _)

variable (V : (c : Dev nD) → (b : Ref sig .tc) → Buf (Elt Ideal) ((c : Thread nD τ).loc b)) (c : Dev nD)

/-- The array row that row p of the block at point t sits at: 512·t + p. -/
def row (t : Fin cfg1.N) (p : Fin 512) : Fin 16384 := ⟨t.val * 512 + p.val, by
  have ht : t.val < 32 := t.isLt
  have hp := p.isLt
  omega⟩

theorem read0 (t : Fin cfg1.N) (p : Fin 512) (q : Fin 2048) :
    iblk1 V c 0 t (ix2 p q) = V c main_v4_3 (ix2 (row t p) q) := by
  show V c main_v4_3 (((cfg1.win 0).blk t).view.emb (ix2 p q)) = V c main_v4_3 (ix2 (row t p) q)
  refine congrArg (V c main_v4_3) (funext fun a => Fin.ext ?_)
  obtain ⟨⟨e0, e1⟩, -⟩ := idx t
  match a with
  | ⟨0, _⟩ => show win1_0.index t (0 : Fin 2) * 512 + 1 * p.val = t.val * 512 + p.val; omega
  | ⟨1, _⟩ => show win1_0.index t (1 : Fin 2) * 2048 + 1 * q.val = q.val; omega

theorem whole1 (t : Fin cfg1.N) : iblk1 V c 1 t = V c main_v3 := by
  funext y
  show V c main_v3 (((cfg1.win 1).blk t).view.emb y) = V c main_v3 y
  refine congrArg (V c main_v3) (funext fun a => Fin.ext ?_)
  obtain ⟨-, ⟨e0, e1⟩, -⟩ := idx t
  match a with
  | ⟨0, _⟩ => show win1_1.index t (0 : Fin 2) * 2048 + 1 * (y 0).val = (y 0).val; omega
  | ⟨1, _⟩ => show win1_1.index t (1 : Fin 2) * 2048 + 1 * (y 1).val = (y 1).val; omega

/-- Entry (p, q) of the output block at point t sits in the array at (512·t + p, q). -/
theorem emb2 (t : Fin cfg1.N) (p : Fin 512) (q : Fin 2048) :
    ((cfg1.win 2).blk t).view.emb (ix2 p q) = ix2 (row t p) q := by
  refine funext fun a => Fin.ext ?_
  obtain ⟨-, -, e0, e1⟩ := idx t
  match a with
  | ⟨0, _⟩ => show win1_2.index t (0 : Fin 2) * 512 + 1 * p.val = t.val * 512 + p.val; omega
  | ⟨1, _⟩ => show win1_2.index t (1 : Fin 2) * 2048 + 1 * q.val = q.val; omega

/-- When the second kernel finds the gated read-out in its first operand and the output weight in its second, what
    point t writes back is block t of the output. -/
theorem flushed2 (I : Cert.TimeMix.Inputs) (hg : V c main_v4_3 = Cert.TimeMix.gatedArr I) (hWo : V c main_v3 = I.Wo)
    (t : Fin cfg1.N) :
    (dat1 V c).flushed 2 t = ((cfg1.win 2).blk t).view.read (Elt Ideal) (Cert.TimeMix.out I) := by
  show (cfg1.win 2).cut (grid1.coords t) ((dat1 V c).after 2 t) = _
  rw [after1_2]
  unfold out1_2
  rw [View.canon_unit_zero hz]
  simp only [View.ld_unit_zero (S := S512x2048) hz, View.ld_unit_zero (S := S2048x2048) hz]
  rw [whole1 V c t, hWo]
  funext j
  obtain ⟨p, q, rfl⟩ : ∃ (p : Fin 512) (q : Fin 2048), j = (ix2 p q : S512x2048.Idx) := ⟨j 0, j 1, eq_ix2 (n0 := 512) (n1 := 2048) j⟩
  show k1_pay1 (iblk1 V c 0 t) I.Wo (ix2 p q) = Cert.TimeMix.out I (((cfg1.win 2).blk t).view.emb (ix2 p q))
  rw [emb2 t p q]
  exact Cert.KernelIdeal.Payload.out_entry I (row t) (iblk1 V c 0 t)
    (fun p q => (read0 V c t p q).trans (congrFun hg (ix2 (row t p) q))) p q

theorem mem_blk2 (t : Fin cfg1.N) (i : S16384x2048.Idx) :
    i ∈ ((cfg1.win 2).blk t).view.set ↔ ∀ a : Fin 2, win1_2.index t a * S512x2048.size a ≤ (i a).val
      ∧ (i a).val < win1_2.index t a * S512x2048.size a + S512x2048.size a := by
  show i ∈ ((View.whole main_v5).slice (win1_2.rect t)).set ↔ _
  rw [View.set_slice_whole, Rect.mem_set_unit]
  exact Iff.rfl

theorem cover2 (i : S16384x2048.Idx) :
    ∃ t : Fin cfg1.N, (cfg1.win 2).flush t = true ∧ i ∈ ((cfg1.win 2).blk t).view.set := by
  have hi0 : (i 0).val < 16384 := (i 0).isLt
  have hi1 : (i 1).val < 2048 := (i 1).isLt
  have hN : cfg1.N = 32 := N_1
  have ht : (i 0).val / 512 < cfg1.N := by rw [hN]; omega
  refine ⟨⟨(i 0).val / 512, ht⟩, flush1_2 _, ?_⟩
  rw [mem_blk2]
  obtain ⟨-, -, e0, e1⟩ := idx ⟨(i 0).val / 512, ht⟩
  intro a
  match a with
  | ⟨0, _⟩ =>
    show win1_2.index ⟨(i 0).val / 512, ht⟩ (0 : Fin 2) * 512 ≤ (i 0).val
      ∧ (i 0).val < win1_2.index ⟨(i 0).val / 512, ht⟩ (0 : Fin 2) * 512 + 512
    rw [e0]; show (i 0).val / 512 * 512 ≤ (i 0).val ∧ (i 0).val < (i 0).val / 512 * 512 + 512; omega
  | ⟨1, _⟩ =>
    show win1_2.index ⟨(i 0).val / 512, ht⟩ (1 : Fin 2) * 2048 ≤ (i 1).val
      ∧ (i 1).val < win1_2.index ⟨(i 0).val / 512, ht⟩ (1 : Fin 2) * 2048 + 2048
    rw [e1]; omega

/-- After the second kernel, its result array is the output, when it found the gated read-out and the output weight
    in its two operands. -/
theorem final2 (I : Cert.TimeMix.Inputs) (hg : V c main_v4_3 = Cert.TimeMix.gatedArr I) (hWo : V c main_v3 = I.Wo) :
    (dat1 V c).arrAt 2 cfg1.N = Cert.TimeMix.out I :=
  (dat1 V c).arrAt_eq_of_cover 2 (Cert.TimeMix.out I) (fun t _ => flushed2 V c I hg hWo t) cover2

end Cert.KernelIdeal.Blocks1
end
-- ==== Proof.Results.lean ====
/-
  The idealized kernel's four results, as functions of the launch arguments.

  Between the launch and the return the buffer contents pass three boundaries: after the host stretch, which only
  narrows the four weights to sixteen bits (the identity on the extended reals), after the first kernel, which
  rewrites exactly its four result arrays, and after the second, which rewrites exactly its one. Walking each result
  buffer back through these boundaries: the next numerator, denominator and exponent are what the first kernel left,
  untouched by the second; the second kernel finds the gated read-out the first one wrote and the output weight the
  first one did not touch, and leaves the output. Each is the specification's function of the thirteen arguments as
  launched.
-/
import proofs.«145627_j52621939310636_2_alg».proof.Proof.Blocks0
import proofs.«145627_j52621939310636_2_alg».proof.Proof.Blocks1
import Idealize.ShloMosaic.Lib.StableHlo.Run

set_option maxRecDepth 16384

noncomputable section

namespace Cert.KernelIdeal.Results

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ) (ρ : Dev nD → PrngReg) (c : Dev nD)

/-- The thirteen arguments as launched. -/
def inputsOf : Cert.TimeMix.Inputs :=
  ⟨m ((c.tc : Thread nD τ).loc main_arg0), m ((c.tc : Thread nD τ).loc main_arg1), m ((c.tc : Thread nD τ).loc main_arg2),
    m ((c.tc : Thread nD τ).loc main_arg3), m ((c.tc : Thread nD τ).loc main_arg4), m ((c.tc : Thread nD τ).loc main_arg5),
    m ((c.tc : Thread nD τ).loc main_arg6), m ((c.tc : Thread nD τ).loc main_arg7), m ((c.tc : Thread nD τ).loc main_arg8),
    m ((c.tc : Thread nD τ).loc main_arg9), m ((c.tc : Thread nD τ).loc main_arg10), m ((c.tc : Thread nD τ).loc main_arg11),
    m ((c.tc : Thread nD τ).loc main_arg12)⟩

/-! ### What the first kernel finds: the host stretch only narrows the four weights, and a narrowing is the identity
    on the extended reals -/

theorem entry_arg0 : V1 m ρ c main_arg0 = m ((c.tc : Thread nD τ).loc main_arg0) := by
  show StableHlo.after hostOps0 (W0 m ρ c) (Proc.devRef .tc main_arg0) = _
  dsimp only [hostOps0]
  after_results
theorem entry_arg1 : V1 m ρ c main_arg1 = m ((c.tc : Thread nD τ).loc main_arg1) := by
  show StableHlo.after hostOps0 (W0 m ρ c) (Proc.devRef .tc main_arg1) = _
  dsimp only [hostOps0]
  after_results
theorem entry_arg2 : V1 m ρ c main_arg2 = m ((c.tc : Thread nD τ).loc main_arg2) := by
  show StableHlo.after hostOps0 (W0 m ρ c) (Proc.devRef .tc main_arg2) = _
  dsimp only [hostOps0]
  after_results
theorem entry_arg3 : V1 m ρ c main_arg3 = m ((c.tc : Thread nD τ).loc main_arg3) := by
  show StableHlo.after hostOps0 (W0 m ρ c) (Proc.devRef .tc main_arg3) = _
  dsimp only [hostOps0]
  after_results
theorem entry_arg4 : V1 m ρ c main_arg4 = m ((c.tc : Thread nD τ).loc main_arg4) := by
  show StableHlo.after hostOps0 (W0 m ρ c) (Proc.devRef .tc main_arg4) = _
  dsimp only [hostOps0]
  after_results
theorem entry_arg5 : V1 m ρ c main_arg5 = m ((c.tc : Thread nD τ).loc main_arg5) := by
  show StableHlo.after hostOps0 (W0 m ρ c) (Proc.devRef .tc main_arg5) = _
  dsimp only [hostOps0]
  after_results
theorem entry_arg6 : V1 m ρ c main_arg6 = m ((c.tc : Thread nD τ).loc main_arg6) := by
  show StableHlo.after hostOps0 (W0 m ρ c) (Proc.devRef .tc main_arg6) = _
  dsimp only [hostOps0]
  after_results
theorem entry_arg7 : V1 m ρ c main_arg7 = m ((c.tc : Thread nD τ).loc main_arg7) := by
  show StableHlo.after hostOps0 (W0 m ρ c) (Proc.devRef .tc main_arg7) = _
  dsimp only [hostOps0]
  after_results
theorem entry_arg8 : V1 m ρ c main_arg8 = m ((c.tc : Thread nD τ).loc main_arg8) := by
  show StableHlo.after hostOps0 (W0 m ρ c) (Proc.devRef .tc main_arg8) = _
  dsimp only [hostOps0]
  after_results

/-- The narrowed key weight is the key weight. -/
theorem entry_v0 : (V1 m ρ c main_v0 : (⟨2, ![2048, 2048]⟩ : Shape).Idx → EReal) = m ((c.tc : Thread nD τ).loc main_arg9) := by
  show StableHlo.after hostOps0 (W0 m ρ c) (Proc.devRef .tc main_v0) = _
  dsimp only [hostOps0]
  after_results
  rfl
/-- The narrowed value weight is the value weight. -/
theorem entry_v1 : (V1 m ρ c main_v1 : (⟨2, ![2048, 2048]⟩ : Shape).Idx → EReal) = m ((c.tc : Thread nD τ).loc main_arg10) := by
  show StableHlo.after hostOps0 (W0 m ρ c) (Proc.devRef .tc main_v1) = _
  dsimp only [hostOps0]
  after_results
  rfl
/-- The narrowed receptance weight is the receptance weight. -/
theorem entry_v2 : (V1 m ρ c main_v2 : (⟨2, ![2048, 2048]⟩ : Shape).Idx → EReal) = m ((c.tc : Thread nD τ).loc main_arg11) := by
  show StableHlo.after hostOps0 (W0 m ρ c) (Proc.devRef .tc main_v2) = _
  dsimp only [hostOps0]
  after_results
  rfl
/-- The narrowed output weight is the output weight. -/
theorem entry_v3 : (V1 m ρ c main_v3 : (⟨2, ![2048, 2048]⟩ : Shape).Idx → EReal) = m ((c.tc : Thread nD τ).loc main_arg12) := by
  show StableHlo.after hostOps0 (W0 m ρ c) (Proc.devRef .tc main_v3) = _
  dsimp only [hostOps0]
  after_results
  rfl

/-- So the first kernel finds the launch arguments. -/
theorem inputsAt_eq :
    Cert.KernelIdeal.Blocks0.inputsAt (V1 m ρ) c (m ((c.tc : Thread nD τ).loc main_arg12)) = inputsOf m c := by
  unfold Cert.KernelIdeal.Blocks0.inputsAt inputsOf
  rw [entry_arg0, entry_arg1, entry_arg2, entry_arg3, entry_arg4, entry_arg5, entry_arg6, entry_arg7, entry_arg8,
    entry_v0, entry_v1, entry_v2]

/-! ### The four results after the run -/

/-- The next numerator: written by the first kernel, untouched by the second. -/
theorem res_newA : W3 m ρ c (Proc.devRef .tc main_v4_0) = Cert.TimeMix.newA (inputsOf m c) :=
  calc W3 m ρ c (Proc.devRef .tc main_v4_0)
    _ = W2 m ρ c (Proc.devRef .tc main_v4_0) := W3_of_ne m ρ c main_v4_0 (by decide)
    _ = (dat0 (V1 m ρ) c).arrAt 12 cfg0.N := W2_arr m ρ c 12
    _ = Cert.TimeMix.newA (Cert.KernelIdeal.Blocks0.inputsAt (V1 m ρ) c (m ((c.tc : Thread nD τ).loc main_arg12))) :=
        Cert.KernelIdeal.Blocks0.final12 (V1 m ρ) c _
    _ = Cert.TimeMix.newA (inputsOf m c) := by rw [inputsAt_eq]

/-- The next denominator. -/
theorem res_newB : W3 m ρ c (Proc.devRef .tc main_v4_1) = Cert.TimeMix.newB (inputsOf m c) :=
  calc W3 m ρ c (Proc.devRef .tc main_v4_1)
    _ = W2 m ρ c (Proc.devRef .tc main_v4_1) := W3_of_ne m ρ c main_v4_1 (by decide)
    _ = (dat0 (V1 m ρ) c).arrAt 13 cfg0.N := W2_arr m ρ c 13
    _ = Cert.TimeMix.newB (Cert.KernelIdeal.Blocks0.inputsAt (V1 m ρ) c (m ((c.tc : Thread nD τ).loc main_arg12))) :=
        Cert.KernelIdeal.Blocks0.final13 (V1 m ρ) c _
    _ = Cert.TimeMix.newB (inputsOf m c) := by rw [inputsAt_eq]

/-- The next exponent. -/
theorem res_newP : W3 m ρ c (Proc.devRef .tc main_v4_2) = Cert.TimeMix.newP (inputsOf m c) :=
  calc W3 m ρ c (Proc.devRef .tc main_v4_2)
    _ = W2 m ρ c (Proc.devRef .tc main_v4_2) := W3_of_ne m ρ c main_v4_2 (by decide)
    _ = (dat0 (V1 m ρ) c).arrAt 14 cfg0.N := W2_arr m ρ c 14
    _ = Cert.TimeMix.newP (Cert.KernelIdeal.Blocks0.inputsAt (V1 m ρ) c (m ((c.tc : Thread nD τ).loc main_arg12))) :=
        Cert.KernelIdeal.Blocks0.final14 (V1 m ρ) c _
    _ = Cert.TimeMix.newP (inputsOf m c) := by rw [inputsAt_eq]

/-- What the second kernel finds in its first operand: the gated read-out the first kernel wrote. -/
theorem mid_gated : (V2 m ρ c main_v4_3 : (⟨2, ![16384, 2048]⟩ : Shape).Idx → EReal) = Cert.TimeMix.gatedArr (inputsOf m c) :=
  calc W2 m ρ c (Proc.devRef .tc main_v4_3)
    _ = (dat0 (V1 m ρ) c).arrAt 15 cfg0.N := W2_arr m ρ c 15
    _ = Cert.TimeMix.gatedArr (Cert.KernelIdeal.Blocks0.inputsAt (V1 m ρ) c (m ((c.tc : Thread nD τ).loc main_arg12))) :=
        Cert.KernelIdeal.Blocks0.final15 (V1 m ρ) c _
    _ = Cert.TimeMix.gatedArr (inputsOf m c) := by rw [inputsAt_eq]

/-- What it finds in its second operand: the output weight, which the first kernel does not touch. -/
theorem mid_Wo : (V2 m ρ c main_v3 : (⟨2, ![2048, 2048]⟩ : Shape).Idx → EReal) = (inputsOf m c).Wo :=
  (W2_of_ne m ρ c main_v3 (by decide)).trans (entry_v3 m ρ c)

/-- The output: written by the second kernel. -/
theorem res_out : W3 m ρ c (Proc.devRef .tc main_v5) = Cert.TimeMix.out (inputsOf m c) :=
  (W3_arr m ρ c 2).trans
    (Cert.KernelIdeal.Blocks1.final2 (V2 m ρ) c (inputsOf m c) (mid_gated m ρ c) (mid_Wo m ρ c))

end Cert.KernelIdeal.Results
end
-- ==== Proof.RefValue.lean ====
/-
  The reference program computes the specification.

  Read at an entry (r, j) of a 16384×2048 result, a row of coefficients broadcast over the rows is that row at (0, j),
  and a matrix product is the sum over k of the left factor at (r, k) times the weight at (k, j). So each of the
  reference's three mixed tokens is x·μ + a·(1 − μ) at (r, k), each of its three products is the specification's
  projection (the key k, the value v, the receptance ρ), and everything after them is entrywise:

      p' = max (p + w) k,   a' = e^(p + w − p')·a + e^(k − p')·v,   b' = e^(p + w − p')·b + e^(k − p'),
      wkv = (e^(p − q)·a + e^(u + k − q)·v) / (e^(p − q)·b + e^(u + k − q)),   q = max p (u + k).

  The reference writes the logistic function out as 1 / (1 + e^(−ρ)), the number one being the value of its 32-bit
  float word; that word denotes one, and the quotient is then the logistic function by its definition. The output is
  the product of σ(ρ)·wkv with the output weight, again a sum over k.

  The four equations below say that the reference's next exponent, next numerator, next denominator and output are
  the specification's newP, newA, newB and out of the same thirteen arguments.
-/
import proofs.«145627_j52621939310636_2_alg».proof.Proof.Gen.ReferenceIdeal.Read
import proofs.«145627_j52621939310636_2_alg».proof.Proof.Spec

noncomputable section
namespace Cert.ReferenceIdeal.RefValue
open Cert.ReferenceIdeal Cert.ReferenceIdeal.Read Idealize.ShloMosaic Idealize.ShloMosaic.ValueIdx
open scoped BigOperators

/-- The thirteen arguments of the reference, as the specification's inputs. -/
def inputs (x0 x1 x2 x3 : (⟨S16384x2048, .f32⟩ : BufTy).Contents (Elt Ideal))
    (x4 x5 x6 x7 x8 : (⟨S1x2048, .f32⟩ : BufTy).Contents (Elt Ideal))
    (x9 x10 x11 x12 : (⟨S2048x2048, .f32⟩ : BufTy).Contents (Elt Ideal)) : Cert.TimeMix.Inputs :=
  ⟨x0, x1, x2, x3, x4, x5, x6, x7, x8, x9, x10, x11, x12⟩

variable (x0 x1 x2 x3 : (⟨S16384x2048, .f32⟩ : BufTy).Contents (Elt Ideal))
    (x4 x5 x6 x7 x8 : (⟨S1x2048, .f32⟩ : BufTy).Contents (Elt Ideal))
    (x9 x10 x11 x12 : (⟨S2048x2048, .f32⟩ : BufTy).Contents (Elt Ideal))

/-! ### Where a broadcast row and the factors of a product are read

A 1×2048 row broadcast over the rows is read, at (r, j), at (0, j); the left factor of a product at (r, j) and
summation index k is read at (r, k), the right factor at (k, j). -/

theorem idx_v0 (r : Fin 16384) (j : Fin 2048) : idx_main_v0 (ix2 r j) = ix2 0 j :=
  funext fun a => Fin.ext (by match a with | ⟨0, _⟩ => rfl | ⟨1, _⟩ => rfl)
theorem idx_v4 (r : Fin 16384) (j : Fin 2048) : idx_main_v4 (ix2 r j) = ix2 0 j :=
  funext fun a => Fin.ext (by match a with | ⟨0, _⟩ => rfl | ⟨1, _⟩ => rfl)
theorem idx_v7 (r : Fin 16384) (j : Fin 2048) : idx_main_v7 (ix2 r j) = ix2 0 j :=
  funext fun a => Fin.ext (by match a with | ⟨0, _⟩ => rfl | ⟨1, _⟩ => rfl)
theorem idx_v11 (r : Fin 16384) (j : Fin 2048) : idx_main_v11 (ix2 r j) = ix2 0 j :=
  funext fun a => Fin.ext (by match a with | ⟨0, _⟩ => rfl | ⟨1, _⟩ => rfl)
theorem idx_v14 (r : Fin 16384) (j : Fin 2048) : idx_main_v14 (ix2 r j) = ix2 0 j :=
  funext fun a => Fin.ext (by match a with | ⟨0, _⟩ => rfl | ⟨1, _⟩ => rfl)
theorem idx_v18 (r : Fin 16384) (j : Fin 2048) : idx_main_v18 (ix2 r j) = ix2 0 j :=
  funext fun a => Fin.ext (by match a with | ⟨0, _⟩ => rfl | ⟨1, _⟩ => rfl)
theorem idx_v30 (r : Fin 16384) (j : Fin 2048) : idx_main_v30 (ix2 r j) = ix2 0 j :=
  funext fun a => Fin.ext (by match a with | ⟨0, _⟩ => rfl | ⟨1, _⟩ => rfl)
theorem idx_v43 (r : Fin 16384) (j : Fin 2048) : idx_main_v43 (ix2 r j) = ix2 0 j :=
  funext fun a => Fin.ext (by match a with | ⟨0, _⟩ => rfl | ⟨1, _⟩ => rfl)

theorem lidx_v21 (r : Fin 16384) (j k : Fin 2048) : lidx_main_v21 (ix2 r j) k = ix2 r k :=
  funext fun a => Fin.ext (by match a with | ⟨0, _⟩ => rfl | ⟨1, _⟩ => rfl)
theorem ridx_v21 (r : Fin 16384) (j k : Fin 2048) : ridx_main_v21 (ix2 r j) k = ix2 k j :=
  funext fun a => Fin.ext (by match a with | ⟨0, _⟩ => rfl | ⟨1, _⟩ => rfl)
theorem lidx_v28 (r : Fin 16384) (j k : Fin 2048) : lidx_main_v28 (ix2 r j) k = ix2 r k :=
  funext fun a => Fin.ext (by match a with | ⟨0, _⟩ => rfl | ⟨1, _⟩ => rfl)
theorem ridx_v28 (r : Fin 16384) (j k : Fin 2048) : ridx_main_v28 (ix2 r j) k = ix2 k j :=
  funext fun a => Fin.ext (by match a with | ⟨0, _⟩ => rfl | ⟨1, _⟩ => rfl)
theorem lidx_v29 (r : Fin 16384) (j k : Fin 2048) : lidx_main_v29 (ix2 r j) k = ix2 r k :=
  funext fun a => Fin.ext (by match a with | ⟨0, _⟩ => rfl | ⟨1, _⟩ => rfl)
theorem ridx_v29 (r : Fin 16384) (j k : Fin 2048) : ridx_main_v29 (ix2 r j) k = ix2 k j :=
  funext fun a => Fin.ext (by match a with | ⟨0, _⟩ => rfl | ⟨1, _⟩ => rfl)
theorem lidx_v56 (r : Fin 16384) (j k : Fin 2048) : lidx_main_v56 (ix2 r j) k = ix2 r k :=
  funext fun a => Fin.ext (by match a with | ⟨0, _⟩ => rfl | ⟨1, _⟩ => rfl)
theorem ridx_v56 (r : Fin 16384) (j k : Fin 2048) : ridx_main_v56 (ix2 r j) k = ix2 k j :=
  funext fun a => Fin.ext (by match a with | ⟨0, _⟩ => rfl | ⟨1, _⟩ => rfl)

/-! ### The three mixed tokens and their projections -/

/-- The token mixed with the key's coefficients, at (r, k): x·μ + a·(1 − μ). -/
theorem mixK_at (r : Fin 16384) (k : Fin 2048) :
    val_main_v6 (F := Ideal) x0 x1 x4 (ix2 r k) = Cert.TimeMix.mix x0 x1 x4 r k := by
  rw [val_main_v6_apply, val_main_v1_apply, val_main_v5_apply, val_main_v0_apply, val_main_v4_apply,
    val_main_v3_apply, val_main_v2_apply, val_main_cst_apply, idx_v0, idx_v4]
  rfl

/-- The token mixed with the value's coefficients, at (r, k). -/
theorem mixV_at (r : Fin 16384) (k : Fin 2048) :
    val_main_v13 (F := Ideal) x0 x1 x5 (ix2 r k) = Cert.TimeMix.mix x0 x1 x5 r k := by
  rw [val_main_v13_apply, val_main_v8_apply, val_main_v12_apply, val_main_v7_apply, val_main_v11_apply,
    val_main_v10_apply, val_main_v9_apply, val_main_cst_0_apply, idx_v7, idx_v11]
  rfl

/-- The token mixed with the receptance's coefficients, at (r, k). -/
theorem mixR_at (r : Fin 16384) (k : Fin 2048) :
    val_main_v20 (F := Ideal) x0 x1 x6 (ix2 r k) = Cert.TimeMix.mix x0 x1 x6 r k := by
  rw [val_main_v20_apply, val_main_v15_apply, val_main_v19_apply, val_main_v14_apply, val_main_v18_apply,
    val_main_v17_apply, val_main_v16_apply, val_main_cst_1_apply, idx_v14, idx_v18]
  rfl

/-- The key at (r, j): the first mixed token times the key weight. -/
theorem key_at (r : Fin 16384) (j : Fin 2048) :
    val_main_v28 (F := Ideal) x0 x1 x4 x9 (ix2 r j) = Cert.TimeMix.proj x0 x1 x4 x9 r j := by
  rw [val_main_v28_apply]
  unfold Cert.TimeMix.proj
  refine Finset.sum_congr rfl fun k _ => ?_
  rw [lidx_v28, ridx_v28, mixK_at]

/-- The value at (r, j): the second mixed token times the value weight. -/
theorem value_at (r : Fin 16384) (j : Fin 2048) :
    val_main_v29 (F := Ideal) x0 x1 x5 x10 (ix2 r j) = Cert.TimeMix.proj x0 x1 x5 x10 r j := by
  rw [val_main_v29_apply]
  unfold Cert.TimeMix.proj
  refine Finset.sum_congr rfl fun k _ => ?_
  rw [lidx_v29, ridx_v29, mixV_at]

/-- The receptance at (r, j): the third mixed token times the receptance weight. -/
theorem recept_at (r : Fin 16384) (j : Fin 2048) :
    val_main_v21 (F := Ideal) x0 x1 x6 x11 (ix2 r j) = Cert.TimeMix.proj x0 x1 x6 x11 r j := by
  rw [val_main_v21_apply]
  unfold Cert.TimeMix.proj
  refine Finset.sum_congr rfl fun k _ => ?_
  rw [lidx_v21, ridx_v21, mixR_at]

/-! ### The state update, entry by entry -/

/-- The next exponent at (r, j): max (p + w) k. -/
theorem nextP_at (r : Fin 16384) (j : Fin 2048) :
    val_main_v45 (F := Ideal) x0 x1 x3 x4 x8 x9 (ix2 r j)
      = Cert.TimeMix.nextP (x3 (ix2 r j)) (x8 (ix2 0 j)) (Cert.TimeMix.proj x0 x1 x4 x9 r j) := by
  rw [val_main_v45_apply, val_main_v44_apply, val_main_v43_apply, idx_v43, key_at]
  rfl

/-- The next numerator at (r, j): e^(p + w − p')·a + e^(k − p')·v. -/
theorem nextA_at (r : Fin 16384) (j : Fin 2048) :
    val_main_v52 (F := Ideal) x0 x1 x3 x4 x5 x8 x9 x10 (ix2 r j)
      = Cert.TimeMix.nextA (x1 (ix2 r j)) (x3 (ix2 r j)) (x8 (ix2 0 j))
          (Cert.TimeMix.proj x0 x1 x4 x9 r j) (Cert.TimeMix.proj x0 x1 x5 x10 r j) := by
  rw [val_main_v52_apply, val_main_v50_apply, val_main_v51_apply, val_main_v47_apply, val_main_v49_apply,
    val_main_v46_apply, val_main_v48_apply, nextP_at, val_main_v44_apply, val_main_v43_apply, idx_v43,
    key_at, value_at]
  rfl

/-- The next denominator at (r, j): e^(p + w − p')·b + e^(k − p'). -/
theorem nextB_at (r : Fin 16384) (j : Fin 2048) :
    val_main_v54 (F := Ideal) x0 x1 x2 x3 x4 x8 x9 (ix2 r j)
      = Cert.TimeMix.nextB (x2 (ix2 r j)) (x3 (ix2 r j)) (x8 (ix2 0 j)) (Cert.TimeMix.proj x0 x1 x4 x9 r j) := by
  rw [val_main_v54_apply, val_main_v53_apply, val_main_v49_apply, val_main_v47_apply, val_main_v46_apply,
    val_main_v48_apply, nextP_at, val_main_v44_apply, val_main_v43_apply, idx_v43, key_at]
  rfl

/-! ### The read-out, entry by entry -/

/-- The weighted average read out of the state at (r, j), the bonus u on the current token. -/
theorem wkv_at (r : Fin 16384) (j : Fin 2048) :
    val_main_v42 (F := Ideal) x0 x1 x2 x3 x4 x5 x7 x9 x10 (ix2 r j)
      = Cert.TimeMix.wkv (x1 (ix2 r j)) (x2 (ix2 r j)) (x3 (ix2 r j)) (x7 (ix2 0 j))
          (Cert.TimeMix.proj x0 x1 x4 x9 r j) (Cert.TimeMix.proj x0 x1 x5 x10 r j) := by
  rw [val_main_v42_apply, val_main_v39_apply, val_main_v41_apply, val_main_v37_apply, val_main_v38_apply,
    val_main_v40_apply, val_main_v34_apply, val_main_v36_apply, val_main_v33_apply, val_main_v35_apply,
    val_main_v32_apply, val_main_v31_apply, val_main_v30_apply, idx_v30, key_at, value_at]
  rfl

/-- The reference's 1 / (1 + e^(−ρ)) at (r, j) is the logistic function of the receptance: its float word of one
    denotes one. -/
theorem sigmoid_at (r : Fin 16384) (j : Fin 2048) :
    val_main_v27 (F := Ideal) x0 x1 x6 x11 (ix2 r j)
      = Ideal.logistic (Cert.TimeMix.proj x0 x1 x6 x11 r j) := by
  rw [val_main_v27_apply, val_main_v26_apply, val_main_cst_3_apply, val_main_v25_apply, val_main_v24_apply,
    val_main_cst_2_apply, val_main_v23_apply, val_main_v22_apply, recept_at]
  have h1 : Ideal.ofBits .f32 0x3F800000#32 = (1 : EReal) := Cert.TimeMix.one_eq
  simp only [Ideal.hostDivf_def, Ideal.addf_def, Ideal.hostUnary_exp_def, Ideal.hostNegf_def, Ideal.negf_def,
    Ideal.ofBits_def, h1]
  rfl

/-- The gated read-out σ(ρ)·wkv at (r, j). -/
theorem gated_at (r : Fin 16384) (j : Fin 2048) :
    val_main_v55 (F := Ideal) x0 x1 x2 x3 x4 x5 x6 x7 x9 x10 x11 (ix2 r j)
      = Cert.TimeMix.gated (inputs x0 x1 x2 x3 x4 x5 x6 x7 x8 x9 x10 x11 x12) r j := by
  rw [val_main_v55_apply, sigmoid_at, wkv_at]
  rfl

/-! ### The four results -/

/-- The reference's next exponent is the specification's. -/
theorem newP_eq : val_main_v45 (F := Ideal) x0 x1 x3 x4 x8 x9
    = Cert.TimeMix.newP (inputs x0 x1 x2 x3 x4 x5 x6 x7 x8 x9 x10 x11 x12) := by
  funext i
  obtain ⟨r, j, rfl⟩ : ∃ (r : Fin 16384) (j : Fin 2048), i = ix2 r j := ⟨i 0, i 1, eq_ix2 i⟩
  rw [nextP_at]
  rfl

/-- The reference's next numerator is the specification's. -/
theorem newA_eq : val_main_v52 (F := Ideal) x0 x1 x3 x4 x5 x8 x9 x10
    = Cert.TimeMix.newA (inputs x0 x1 x2 x3 x4 x5 x6 x7 x8 x9 x10 x11 x12) := by
  funext i
  obtain ⟨r, j, rfl⟩ : ∃ (r : Fin 16384) (j : Fin 2048), i = ix2 r j := ⟨i 0, i 1, eq_ix2 i⟩
  rw [nextA_at]
  rfl

/-- The reference's next denominator is the specification's. -/
theorem newB_eq : val_main_v54 (F := Ideal) x0 x1 x2 x3 x4 x8 x9
    = Cert.TimeMix.newB (inputs x0 x1 x2 x3 x4 x5 x6 x7 x8 x9 x10 x11 x12) := by
  funext i
  obtain ⟨r, j, rfl⟩ : ∃ (r : Fin 16384) (j : Fin 2048), i = ix2 r j := ⟨i 0, i 1, eq_ix2 i⟩
  rw [nextB_at]
  rfl

/-- The reference's output is the specification's: the gated read-out times the output weight. -/
theorem out_eq : val_main_v56 (F := Ideal) x0 x1 x2 x3 x4 x5 x6 x7 x9 x10 x11 x12
    = Cert.TimeMix.out (inputs x0 x1 x2 x3 x4 x5 x6 x7 x8 x9 x10 x11 x12) := by
  funext i
  obtain ⟨r, j, rfl⟩ : ∃ (r : Fin 16384) (j : Fin 2048), i = ix2 r j := ⟨i 0, i 1, eq_ix2 i⟩
  rw [val_main_v56_apply]
  show _ = ∑ k : Fin 2048, Cert.TimeMix.gated (inputs x0 x1 x2 x3 x4 x5 x6 x7 x8 x9 x10 x11 x12) r k * x12 (ix2 k j)
  refine Finset.sum_congr rfl fun k _ => ?_
  rw [lidx_v56, ridx_v56, gated_at x0 x1 x2 x3 x4 x5 x6 x7 x8 x9 x10 x11 x12]

end Cert.ReferenceIdeal.RefValue
end
-- ==== Proof.lean ====
/-
  A time-mixing step of a recurrent language model, as two fused kernels, against its plain reference: equal results
  over the extended reals.

  The step mixes the token x with the running numerator a by three coefficient rows, projects the three mixes by the
  key, value and receptance weights, reads the state's weighted average out with a bonus on the current token, gates
  it by the logistic function of the receptance, updates the state (numerator, denominator, exponent) by the decay,
  and projects the gated read-out by the output weight. The kernel does all but the last product in one pass over
  64-row blocks, handing the gated read-out to a second pass that multiplies 512-row blocks by the output weight; it
  narrows the weights and the matrix products' left factors to sixteen bits, which is the identity on the extended
  reals. The reference does the same arithmetic on whole arrays and writes the logistic function out as
  1 / (1 + e^(−ρ)), which is its definition. No law beyond these is needed: both programs apply the same operations
  in the same order, and every sum is over the same 2048 terms, so neither the inputs' finiteness nor any
  rearrangement enters.

  Both runs are read against one specification (Spec.lean): the reference's generated run through its operations read
  at an entry (RefValue.lean), the kernel's through its frame with the four results named (RunNamed.lean), each
  kernel's blocks assembled into whole arrays (Blocks0.lean, Blocks1.lean, over the arithmetic at a block entry in
  Payload.lean) and walked back to the launch arguments (Results.lean).
-/
import proofs.«145627_j52621939310636_2_alg».proof.Defs
import proofs.«145627_j52621939310636_2_alg».proof.Proof.Gen.Kernel
import proofs.«145627_j52621939310636_2_alg».proof.Proof.Gen.Kernel.Frame
import proofs.«145627_j52621939310636_2_alg».proof.Proof.Gen.KernelIdeal
import proofs.«145627_j52621939310636_2_alg».proof.Proof.Gen.KernelIdeal.Frame
import proofs.«145627_j52621939310636_2_alg».proof.Proof.Gen.ReferenceIdeal
import proofs.«145627_j52621939310636_2_alg».proof.Proof.Gen.ReferenceIdeal.Run
import proofs.«145627_j52621939310636_2_alg».proof.Proof.Gen.ReferenceIdeal.Read
import proofs.«145627_j52621939310636_2_alg».proof.Proof.Gen.Pre_finite_inputs
import proofs.«145627_j52621939310636_2_alg».proof.Proof.RunNamed
import proofs.«145627_j52621939310636_2_alg».proof.Proof.Results
import proofs.«145627_j52621939310636_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs, and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run with the four results dropped. -/
theorem frame_referenceIdeal : Cert.frame_ReferenceIdeal := fun m ρ _ =>
  (θ_run Cert.ReferenceIdeal.defs _ _).mono (fun _ h c => (h c).2.2.2.2) (Cert.ReferenceIdeal.Value.run (F := Ideal) m ρ)

/-- The idealization rewrote no operation. -/
theorem preserves : Cert.preserves_Kernel_KernelIdeal := trivial

/-- From memories agreeing on the thirteen arguments, both programs end with the output, the next numerator, the
    next denominator and the next exponent of the specification at those arguments. -/
theorem algebraic : Cert.algebraic_KernelIdeal_ReferenceIdeal := by
  intro m ρ m' ρ' _ hagree
  refine ⟨fun c => Cert.TimeMix.out (Cert.KernelIdeal.Results.inputsOf m c),
    fun c => Cert.TimeMix.newA (Cert.KernelIdeal.Results.inputsOf m c),
    fun c => Cert.TimeMix.newB (Cert.KernelIdeal.Results.inputsOf m c),
    fun c => Cert.TimeMix.newP (Cert.KernelIdeal.Results.inputsOf m c), ?_, ?_⟩
  · refine (θ_run Cert.KernelIdeal.defs _ _).mono (fun r h c => ?_) (Cert.KernelIdeal.Named.run (F := Ideal) m ρ)
    obtain ⟨h5, h40, h41, h42, hargs⟩ := h c
    exact ⟨h5.trans (Cert.KernelIdeal.Results.res_out m ρ c), h40.trans (Cert.KernelIdeal.Results.res_newA m ρ c),
      h41.trans (Cert.KernelIdeal.Results.res_newB m ρ c), h42.trans (Cert.KernelIdeal.Results.res_newP m ρ c), hargs⟩
  · refine (θ_run Cert.ReferenceIdeal.defs _ _).mono (fun r h c => ?_) (Cert.ReferenceIdeal.Value.run (F := Ideal) m' ρ')
    obtain ⟨h56, h52, h54, h45, hargs⟩ := h c
    obtain ⟨a0, a1, a2, a3, a4, a5, a6, a7, a8, a9, a10, a11, a12⟩ := hagree c
    -- the reference's arguments are the kernel's
    have hI : Cert.ReferenceIdeal.RefValue.inputs
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6))
        (m' ((c.tc : Thread Cert.ReferenceIdeal.nD Cert.ReferenceIdeal.τ).loc Cert.ReferenceIdeal.main_arg7))
        (m' ((c.tc : Thread Cert.ReferenceIdeal.nD Cert.ReferenceIdeal.τ).loc Cert.ReferenceIdeal.main_arg8))
        (m' ((c.tc : Thread Cert.ReferenceIdeal.nD Cert.ReferenceIdeal.τ).loc Cert.ReferenceIdeal.main_arg9))
        (m' ((c.tc : Thread Cert.ReferenceIdeal.nD Cert.ReferenceIdeal.τ).loc Cert.ReferenceIdeal.main_arg10))
        (m' ((c.tc : Thread Cert.ReferenceIdeal.nD Cert.ReferenceIdeal.τ).loc Cert.ReferenceIdeal.main_arg11))
        (m' ((c.tc : Thread Cert.ReferenceIdeal.nD Cert.ReferenceIdeal.τ).loc Cert.ReferenceIdeal.main_arg12))
        = Cert.KernelIdeal.Results.inputsOf m c := by
      unfold Cert.ReferenceIdeal.RefValue.inputs Cert.KernelIdeal.Results.inputsOf
      rw [a0, a1, a2, a3, a4, a5, a6, a7, a8, a9, a10, a11, a12]
    refine ⟨?_, ?_, ?_, ?_, hargs⟩
    · exact h56.trans ((Cert.ReferenceIdeal.Read.val_main_v56_eq m' c).trans
        ((Cert.ReferenceIdeal.RefValue.out_eq _ _ _ _ _ _ _ _
          (m' ((c.tc : Thread Cert.ReferenceIdeal.nD Cert.ReferenceIdeal.τ).loc Cert.ReferenceIdeal.main_arg8)) _ _ _ _).trans
          (congrArg Cert.TimeMix.out hI)))
    · exact h52.trans ((Cert.ReferenceIdeal.Read.val_main_v52_eq _ _ _ _ _ _ _ _).trans
        ((Cert.ReferenceIdeal.RefValue.newA_eq _ _
          (m' ((c.tc : Thread Cert.ReferenceIdeal.nD Cert.ReferenceIdeal.τ).loc Cert.ReferenceIdeal.main_arg2)) _ _ _
          (m' ((c.tc : Thread Cert.ReferenceIdeal.nD Cert.ReferenceIdeal.τ).loc Cert.ReferenceIdeal.main_arg6))
          (m' ((c.tc : Thread Cert.ReferenceIdeal.nD Cert.ReferenceIdeal.τ).loc Cert.ReferenceIdeal.main_arg7)) _ _ _
          (m' ((c.tc : Thread Cert.ReferenceIdeal.nD Cert.ReferenceIdeal.τ).loc Cert.ReferenceIdeal.main_arg11))
          (m' ((c.tc : Thread Cert.ReferenceIdeal.nD Cert.ReferenceIdeal.τ).loc Cert.ReferenceIdeal.main_arg12))).trans
          (congrArg Cert.TimeMix.newA hI)))
    · exact h54.trans ((Cert.ReferenceIdeal.Read.val_main_v54_eq _ _ _ _ _ _ _).trans
        ((Cert.ReferenceIdeal.RefValue.newB_eq _ _ _ _ _
          (m' ((c.tc : Thread Cert.ReferenceIdeal.nD Cert.ReferenceIdeal.τ).loc Cert.ReferenceIdeal.main_arg5))
          (m' ((c.tc : Thread Cert.ReferenceIdeal.nD Cert.ReferenceIdeal.τ).loc Cert.ReferenceIdeal.main_arg6))
          (m' ((c.tc : Thread Cert.ReferenceIdeal.nD Cert.ReferenceIdeal.τ).loc Cert.ReferenceIdeal.main_arg7)) _ _
          (m' ((c.tc : Thread Cert.ReferenceIdeal.nD Cert.ReferenceIdeal.τ).loc Cert.ReferenceIdeal.main_arg10))
          (m' ((c.tc : Thread Cert.ReferenceIdeal.nD Cert.ReferenceIdeal.τ).loc Cert.ReferenceIdeal.main_arg11))
          (m' ((c.tc : Thread Cert.ReferenceIdeal.nD Cert.ReferenceIdeal.τ).loc Cert.ReferenceIdeal.main_arg12))).trans
          (congrArg Cert.TimeMix.newB hI)))
    · exact h45.trans ((Cert.ReferenceIdeal.Read.val_main_v45_eq _ _ _ _ _ _).trans
        ((Cert.ReferenceIdeal.RefValue.newP_eq _ _
          (m' ((c.tc : Thread Cert.ReferenceIdeal.nD Cert.ReferenceIdeal.τ).loc Cert.ReferenceIdeal.main_arg2)) _ _
          (m' ((c.tc : Thread Cert.ReferenceIdeal.nD Cert.ReferenceIdeal.τ).loc Cert.ReferenceIdeal.main_arg5))
          (m' ((c.tc : Thread Cert.ReferenceIdeal.nD Cert.ReferenceIdeal.τ).loc Cert.ReferenceIdeal.main_arg6))
          (m' ((c.tc : Thread Cert.ReferenceIdeal.nD Cert.ReferenceIdeal.τ).loc Cert.ReferenceIdeal.main_arg7)) _ _
          (m' ((c.tc : Thread Cert.ReferenceIdeal.nD Cert.ReferenceIdeal.τ).loc Cert.ReferenceIdeal.main_arg10))
          (m' ((c.tc : Thread Cert.ReferenceIdeal.nD Cert.ReferenceIdeal.τ).loc Cert.ReferenceIdeal.main_arg11))
          (m' ((c.tc : Thread Cert.ReferenceIdeal.nD Cert.ReferenceIdeal.τ).loc Cert.ReferenceIdeal.main_arg12))).trans
          (congrArg Cert.TimeMix.newP hI)))

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
